-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg5 : FVec F S128x64 .f32) (main_arg6 : FVec F S64 .f32) (main_arg7 : FVec F S128x64 .f32) (main_arg8 : FVec F S64x1 .f32) (main_arg9 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x128 .f32) (main_arg3 : FVec F S128 .f32) (main_arg4 : FVec F S64x128 .f32) (main_arg5 : FVec F S128x64 .f32) (main_arg6 : FVec F S64 .f32) (main_arg7 : FVec F S128x64 .f32) (main_arg8 : FVec F S64x1 .f32) (main_arg9 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x128 .f32 := Host.absf main_arg2
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩
abbrev S1x1 : Shape := ⟨2, ![1, 1]⟩
abbrev S5000x1 : Shape := ⟨2, ![5000, 1]⟩

abbrev nBuf : Space → Nat
  | .hbm => 70
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S1x128, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S_, .f32⟩
  | .hbm, ⟨55, _⟩ => ⟨S1600000, .f32⟩
  | .hbm, ⟨56, _⟩ => ⟨S_, .f32⟩
  | .hbm, ⟨57, _⟩ => ⟨S100000, .f32⟩
  | .hbm, ⟨58, _⟩ => ⟨S1600000x1, .i32⟩
  | .hbm, ⟨59, _⟩ => ⟨S100000, .f32⟩
  | .hbm, ⟨60, _⟩ => ⟨S_, .f32⟩
  | .hbm, ⟨61, _⟩ => ⟨S100000, .f32⟩
  | .hbm, ⟨62, _⟩ => ⟨S100000, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S1x64, .f32⟩
  | .hbm, ⟨67, _⟩ => ⟨S100000x64, .f32⟩
  | .hbm, ⟨68, _⟩ => ⟨S1x1, .f32⟩
  | .hbm, ⟨69, _⟩ => ⟨S100000x1, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S1x128, .f32⟩
  | .local _ .vmem, ⟨6, _⟩ => ⟨S64x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S64x1, .f32⟩
  | .local _ .vmem, ⟨21, _⟩ => ⟨S1x1, .f32⟩
  | .local _ .vmem, ⟨22, _⟩ => ⟨S5000x1, .f32⟩
  | .local _ .vmem, ⟨23, _⟩ => ⟨S5000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_cst_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_9 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  dot_S5000x64_S64x1_S5000x1_1_0_0_1_n_n_wf : DotDims.WF S5000x64 S64x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x1_S5000x1_1_0_0_1_n_n : DotDims S5000x64 S64x1 S5000x1 where
  lhsContracting := [1]
  rhsContracting := [0]
  lhsNonContracting := [0]
  rhsNonContracting := [1]
  lhsBatch := []
  rhsBatch := []
  wf := dot_S5000x64_S64x1_S5000x1_1_0_0_1_n_n_wf

abbrev win0_0 : Pipeline.Window sig grid0 :=
  Pipeline.Window.ofSpec (Memref.whole main_v22) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v44) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v45) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x128 : Shape := ⟨2, ![64, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩
abbrev S1x1 : Shape := ⟨2, ![1, 1]⟩

abbrev nBuf : Space → Nat
  | .hbm => 98
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x128, .f32⟩
  | .hbm, ⟨3, _⟩ => ⟨S128, .f32⟩
  | .hbm, ⟨4, _⟩ => ⟨S64x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x1, .f32⟩
  | .hbm, ⟨9, _⟩ => ⟨S1, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S100000, .f32⟩
  | .hbm, ⟨31, _⟩ => ⟨S1600000x1, .i32⟩
  | .hbm, ⟨32, _⟩ => ⟨S100000, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S1x1600000, .i32⟩
  | .hbm, ⟨49, _⟩ => ⟨S1600000, .i32⟩
  | .hbm, ⟨50, _⟩ => ⟨S1x1600000, .i32⟩
  | .hbm, ⟨51, _⟩ => ⟨S1600000, .i32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x64, .f32⟩
  | .hbm, ⟨78, _⟩ => ⟨S1x64, .f32⟩
  | .hbm, ⟨79, _⟩ => ⟨S100000x64, .f32⟩
  | .hbm, ⟨80, _⟩ => ⟨S100000x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S100000x64, .f32⟩
  | .hbm, ⟨85, _⟩ => ⟨S100000x64, .f32⟩
  | .hbm, ⟨86, _⟩ => ⟨S100000x1, .f32⟩
  | .hbm, ⟨87, _⟩ => ⟨S1x1, .f32⟩
  | .hbm, ⟨88, _⟩ => ⟨S100000x1, .f32⟩
  | .hbm, ⟨89, _⟩ => ⟨S100000x1, .f32⟩
  | .hbm, ⟨90, _⟩ => ⟨S100000x1, .f32⟩
  | .hbm, ⟨91, _⟩ => ⟨S100000x1, .f32⟩
  | .hbm, ⟨92, _⟩ => ⟨S_, .f32⟩
  | .hbm, ⟨93, _⟩ => ⟨S100000x1, .f32⟩
  | .hbm, ⟨94, _⟩ => ⟨S100000x1, .f32⟩
  | .hbm, ⟨95, _⟩ => ⟨S_, .f32⟩
  | .hbm, ⟨96, _⟩ => ⟨S100000x1, .f32⟩
  | .hbm, ⟨97, _⟩ => ⟨S100000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call0_cst : Ref sig .tc := ⟨.hbm, 45, rfl⟩
abbrev main_call0_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_4 : Ref sig .tc := ⟨.hbm, 52, rfl⟩
abbrev main_v34 : Ref sig .tc := ⟨.hbm, 53, rfl⟩
abbrev main_v35 : Ref sig .tc := ⟨.hbm, 54, rfl⟩
abbrev main_c_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_7 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_cst_11 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  dot_S100000x64_S64x1_S100000x1_1_0_0_1_n_n_wf : DotDims.WF S100000x64 S64x1 S100000x1 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S100000x64_S64x1_S100000x1_1_0_0_1_n_n : DotDims S100000x64 S64x1 S100000x1 where
  lhsContracting := [1]
  rhsContracting := [0]
  lhsNonContracting := [0]
  rhsNonContracting := [1]
  lhsBatch := []
  rhsBatch := []
  wf := dot_S100000x64_S64x1_S100000x1_1_0_0_1_n_n_wf

class Facts : Prop extends Facts₀ where

variable [Facts]
-- ==== Proof.KernelRun.lean ====
/-
  The idealized kernel program's run with its RESULT named.

  @main is three pipelined regions among stretches of host operations.  Every weakly fair execution from a memory with
  zero counters terminates, nothing faulting, and at the end every unscoped buffer of a core holds what the fold of the
  segments leaves there: the result buffer holds the last region's output array as its write-backs leave it, and the
  ten argument arrays are as launched (no host operation and no region writes an argument).
-/
import proofs.«176698_j48481590837453_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run_main : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c)⟩)

end Cert.KernelIdeal.Run

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«176698_j48481590837453_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.LibHostRows.lean ====
/-
  The host's keep-dimension broadcasts and its row sum, read at an entry, for any extents.

  `jnp` writes `v[:, None]` as a `broadcast_in_dim` of an `[a]` vector into an `[a, 1]` column (the vector's axis sent
  to axis 0), repeats such a column along `b` columns by a `broadcast_in_dim` with the identity axis map, writes a bias
  `[b]` as a `[1, b]` row (the vector's axis sent to axis 1) and repeats that row down `a` rows. Each, read at an
  entry, is the operand at the evident entry. A host sum over the second axis of an `[a, b]` matrix, read at row `r`
  on the extended reals, is the initial value plus the sum of that row's entries.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-- An `[a]` vector broadcast into the column `[a, 1]` reads, at `(r, u)`, the vector at `r`. -/
theorem bcast_a_a1_at {a : ℕ} (dims : Fin (⟨1, ![a]⟩ : Shape).rank → Fin (⟨2, ![a, 1]⟩ : Shape).rank) (hd : dims 0 = 0)
    (h : (⟨1, ![a]⟩ : Shape).BroadcastsInDim ⟨2, ![a, 1]⟩ dims) (x : (⟨1, ![a]⟩ : Shape).Idx → α) (r : Fin a) (u : Fin 1) :
    broadcastInDim ⟨2, ![a, 1]⟩ dims h x (ix2 r u) = x (ix1 r) := by
  refine broadcastInDim_apply dims h x (ix2 r u) (ix1 r) fun ax => ?_
  match ax with
  | ⟨0, _⟩ =>
    show r.val = if a = 1 then 0 else (ix2 r u (dims 0)).val
    rw [hd]
    split
    · have := r.isLt; omega
    · rfl

/-- A column `[a, 1]` broadcast along `b` columns reads, at `(r, k)`, the column at `r`. -/
theorem bcast_a1_ab_at {a b : ℕ} (dims : Fin (⟨2, ![a, 1]⟩ : Shape).rank → Fin (⟨2, ![a, b]⟩ : Shape).rank)
    (hd0 : dims 0 = 0) (hd1 : dims 1 = 1)
    (h : (⟨2, ![a, 1]⟩ : Shape).BroadcastsInDim ⟨2, ![a, b]⟩ dims) (x : (⟨2, ![a, 1]⟩ : Shape).Idx → α) (r : Fin a) (k : Fin b) :
    broadcastInDim ⟨2, ![a, b]⟩ dims h x (ix2 r k) = x (ix2 r (0 : Fin 1)) := by
  refine broadcastInDim_apply dims h x (ix2 r k) (ix2 r (0 : Fin 1)) fun ax => ?_
  match ax with
  | ⟨0, _⟩ =>
    show r.val = if a = 1 then 0 else (ix2 r k (dims 0)).val
    rw [hd0]
    split
    · have := r.isLt; omega
    · rfl
  | ⟨1, _⟩ =>
    show (0 : ℕ) = if (1 : ℕ) = 1 then 0 else (ix2 r k (dims 1)).val
    rw [if_pos rfl]

/-- A vector `[b]` broadcast into the row `[1, b]` reads, at `(u, j)`, the vector at `j`. -/
theorem bcast_b_1b_at {b : ℕ} (dims : Fin (⟨1, ![b]⟩ : Shape).rank → Fin (⟨2, ![1, b]⟩ : Shape).rank) (hd : dims 0 = 1)
    (h : (⟨1, ![b]⟩ : Shape).BroadcastsInDim ⟨2, ![1, b]⟩ dims) (x : (⟨1, ![b]⟩ : Shape).Idx → α) (u : Fin 1) (j : Fin b) :
    broadcastInDim ⟨2, ![1, b]⟩ dims h x (ix2 u j) = x (ix1 j) := by
  refine broadcastInDim_apply dims h x (ix2 u j) (ix1 j) fun ax => ?_
  match ax with
  | ⟨0, _⟩ =>
    show j.val = if b = 1 then 0 else (ix2 u j (dims 0)).val
    rw [hd]
    split
    · have := j.isLt; omega
    · rfl

/-- A row `[1, b]` repeated down `a` rows reads, at `(r, j)`, the row at `j`. -/
theorem bcast_1b_ab_at {a b : ℕ} (dims : Fin (⟨2, ![1, b]⟩ : Shape).rank → Fin (⟨2, ![a, b]⟩ : Shape).rank)
    (hd0 : dims 0 = 0) (hd1 : dims 1 = 1)
    (h : (⟨2, ![1, b]⟩ : Shape).BroadcastsInDim ⟨2, ![a, b]⟩ dims) (x : (⟨2, ![1, b]⟩ : Shape).Idx → α) (r : Fin a) (j : Fin b) :
    broadcastInDim ⟨2, ![a, b]⟩ dims h x (ix2 r j) = x (ix2 (0 : Fin 1) j) := by
  refine broadcastInDim_apply dims h x (ix2 r j) (ix2 (0 : Fin 1) j) fun ax => ?_
  match ax with
  | ⟨0, _⟩ =>
    show (0 : ℕ) = if (1 : ℕ) = 1 then 0 else (ix2 r j (dims 0)).val
    rw [if_pos rfl]
  | ⟨1, _⟩ =>
    show j.val = if b = 1 then 0 else (ix2 r j (dims 1)).val
    rw [hd1]
    split
    · have := j.isLt; omega
    · rfl

/-- On the extended reals the host's sum over the second axis of an `[a, b]` matrix is, at row `r`, the initial value plus
    the sum of that row's entries. -/
theorem hostReduceAdd_rows {a b : ℕ} {u : Shape} (x : FVec Ideal ⟨2, ![a, b]⟩ .f32) (init : u.Idx → Ideal .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ d : Fin b, x (ix2 r d) := by
  rw [hostReduceAdd_apply, Ideal.hostReduceAdd_single h' h]
  refine congrArg (init (Shape.Idx.first hu) + ·) (Finset.sum_congr rfl fun d _ => congrArg x (funext fun ax => Fin.ext ?_))
  match ax with
  | ⟨0, _⟩ => rfl
  | ⟨1, _⟩ => rfl

end Cert.LibHostRows

end
-- ==== Proof.LibBlockLayout.lean ====
/-
  Three layout steps of a pipelined kernel body, read at an entry, for any extents.

  A window's block carries a leading unit axis: a body that works on matrices casts a [1, R, C] block to an [R, C]
  matrix on loading and an [R, C] result back to a [1, R, C] block on storing; and a bias kept as a [1, N] row is
  repeated down the R rows of the matrix it is added to. Each step, read at an entry, is the operand read at the
  evident entry: the row-major position of (0, r, c) among [1, R, C] is that of (r, c) among [R, C].
-/
import Idealize.ShloMosaic.Lib.Pipeline.Value
import Idealize.ShloMosaic.Lib.ValueIdx

noncomputable section

namespace Cert.LibBlockLayout

open Idealize.ShloMosaic Idealize.ShloMosaic.ValueIdx

/-- A [1, R, C] block viewed as an [R, C] matrix reads, at (r, c), the block at (0, r, c). -/
theorem dropUnit_at {α : Type} {R C : ℕ} (v : (⟨3, ![1, R, C]⟩ : Shape).Idx → α)
    (h : (⟨3, ![1, R, C]⟩ : Shape).ShapeCasts ⟨2, ![R, C]⟩) (r : Fin R) (c : Fin C) :
    shapeCast ⟨2, ![R, C]⟩ v h (ix2 r c) = v (ix3 (0 : Fin 1) r c) := by
  refine shapeCast_apply v h (ix2 r c) (ix3 (0 : Fin 1) r c) ?_
  rw [Shape.rowMajor_val_three, Shape.rowMajor_val_two]
  show ((0 : ℕ) * R + r.val) * C + c.val = r.val * C + c.val
  rw [Nat.zero_mul, Nat.zero_add]

/-- An [R, C] matrix stored as a [1, R, C] block reads, at (0, r, c), the matrix at (r, c). -/
theorem addUnit_at {α : Type} {R C : ℕ} (v : (⟨2, ![R, C]⟩ : Shape).Idx → α)
    (h : (⟨2, ![R, C]⟩ : Shape).ShapeCasts ⟨3, ![1, R, C]⟩) (r : Fin R) (c : Fin C) :
    shapeCast ⟨3, ![1, R, C]⟩ v h (ix3 (0 : Fin 1) r c) = v (ix2 r c) := by
  refine shapeCast_apply v h (ix3 (0 : Fin 1) r c) (ix2 r c) ?_
  rw [Shape.rowMajor_val_three, Shape.rowMajor_val_two]
  show r.val * C + c.val = ((0 : ℕ) * R + r.val) * C + c.val
  rw [Nat.zero_mul, Nat.zero_add]

/-- A [1, N] row repeated down R rows reads, at (r, g), the row at (0, g). -/
theorem rowBroadcast_at {α : Type} {R N : ℕ} (row : (⟨2, ![1, N]⟩ : Shape).Idx → α)
    (hb : (⟨2, ![1, N]⟩ : Shape).Broadcasts ⟨2, ![R, N]⟩) (r : Fin R) (g : Fin N) :
    broadcastTo ⟨2, ![R, N]⟩ row hb (ix2 r g) = row (ix2 (0 : Fin 1) g) := by
  refine broadcastTo_apply row hb (ix2 r g) (ix2 (0 : Fin 1) g) (fun a => ?_)
  match a with
  | ⟨0, _⟩ => show (0 : ℕ) = if (1 : ℕ) = 1 then 0 else _; rw [if_pos rfl]
  | ⟨1, _⟩ =>
    show g.val = if N = 1 then 0 else g.val
    split_ifs with h
    · have := g.isLt; omega
    · rfl

end Cert.LibBlockLayout

end
-- ==== Proof.LibDenseLayers.lean ====
/-
  One dense layer, x · W + b, read at an entry on the extended reals, in the two spellings it has here: a pipelined
  kernel body's (a matrix product of the operands narrowed to bf16 into the zero accumulator, plus the bias row kept as a
  [1, N] block and repeated down the rows) and a host program's (a dot_general plus the same row repeated by a
  broadcast_in_dim).  On the extended reals a change of float format is the identity and both products are the plain
  sum over the contracted axis, so both spellings read, at (r, g), as  Σₖ x (r, k) · W (k, g) + b (0, g).

  For any extents R, K, N.  Also here: the same for a second product h · W without bias (`dotAt`), the host's zero
  matrix read at an entry, a bias vector made a [1, N] row by a reshape against the row a broadcast_in_dim along axis 1
  makes of it (`row_of_vector`), and the whole-matrix layer functions the entries belong to: x · W + b (`affLayer`),
  its rectification (`projLayer`) and the rectified two-input layer (a · Wl + b) + h · Wr (`sageLayer`).
-/
import Idealize.ShloMosaic.Lib.Pipeline.Value
import Idealize.ShloMosaic.Lib.ValueIdx
import Idealize.ShloMosaic.PureOps.Ideal.Laws
import proofs.«176698_j48481590837453_1_alg».proof.Proof.LibPlainMatmul
import proofs.«176698_j48481590837453_1_alg».proof.Proof.LibPlainDot
import proofs.«176698_j48481590837453_1_alg».proof.Proof.LibHostRows
import proofs.«176698_j48481590837453_1_alg».proof.Proof.LibBlockLayout

noncomputable section

open scoped BigOperators

namespace Cert.SageLayers

open Idealize.ShloMosaic Idealize.ShloMosaic.ValueIdx

variable {R K N : ℕ}

/-- Entry (r, g) of x · W + b, the bias a [1, N] row. -/
def affineAt (A : (⟨2, ![R, K]⟩ : Shape).Idx → EReal) (W : (⟨2, ![K, N]⟩ : Shape).Idx → EReal)
    (b : (⟨2, ![1, N]⟩ : Shape).Idx → EReal) (r : Fin R) (g : Fin N) : EReal :=
  (∑ k : Fin K, A (ix2 r k) * W (ix2 k g)) + b (ix2 (0 : Fin 1) g)

/-- The zero word of f32, on the extended reals. -/
abbrev zeroF : EReal := Ideal.ofBits .f32 0x00000000#32

/-- Entry (r, g) of h · W. -/
def dotAt (H : (⟨2, ![R, K]⟩ : Shape).Idx → EReal) (W : (⟨2, ![K, N]⟩ : Shape).Idx → EReal) (r : Fin R) (g : Fin N) : EReal :=
  ∑ k : Fin K, H (ix2 r k) * W (ix2 k g)

/-- The layer x · W + b as a whole matrix. -/
def affLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => affineAt A W b (i 0) (i 1)

/-- The rectified layer max (x · W + b, 0) as a whole matrix. -/
def projLayer (A : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => max (affineAt A W b (i 0) (i 1)) zeroF

/-- The rectified two-input layer max ((a · Wl + b) + h · Wr, 0) as a whole matrix. -/
def sageLayer {K' : ℕ} (A : (⟨2, ![R, K]⟩ : Shape).Idx → EReal) (H : (⟨2, ![R, K']⟩ : Shape).Idx → EReal)
    (Wl : (⟨2, ![K, N]⟩ : Shape).Idx → EReal) (b : (⟨2, ![1, N]⟩ : Shape).Idx → EReal)
    (Wr : (⟨2, ![K', N]⟩ : Shape).Idx → EReal) : (⟨2, ![R, N]⟩ : Shape).Idx → EReal :=
  fun i => max (affineAt A Wl b (i 0) (i 1) + dotAt H Wr (i 0) (i 1)) zeroF

/-- The kernel body's second product, read at an entry. -/
theorem kernel_dot_at (H : FVec Ideal ⟨2, ![R, K]⟩ .f32) (W : FVec Ideal ⟨2, ![K, N]⟩ .f32)
    (h1 : FTy.bf16.bits < FTy.f32.bits) (h2 : FTy.bf16.bits < FTy.f32.bits) (r : Fin R) (g : Fin N) :
    matmul (DotDims.plain R K N) none (truncf .bf16 H h1) (truncf .bf16 W h2) (constant ⟨2, ![R, N]⟩ .f32 0x00000000#32) (ix2 r g)
      = dotAt H W r g :=
  Cert.LibPlainMatmul.matmul_zero_apply none (truncf .bf16 H h1) (truncf .bf16 W h2) r g

/-- The host's product read at an entry. -/
theorem host_dot_at (H : FVec Ideal ⟨2, ![R, K]⟩ .f32) (W : FVec Ideal ⟨2, ![K, N]⟩ .f32) (r : Fin R) (g : Fin N) :
    Host.dotGeneral (DotDims.plain R K N) none H W (ix2 r g) = dotAt H W r g :=
  Cert.LibPlainDot.dotGeneral_apply none H W r g

/-- The host's zero matrix read at an entry. -/
theorem host_zero_at {s : Shape} (d : Fin (⟨0, ![]⟩ : Shape).rank → Fin s.rank) (hb : (⟨0, ![]⟩ : Shape).BroadcastsInDim s d)
    (i : s.Idx) : broadcastInDim s d hb (constant (F := Ideal) ⟨0, ![]⟩ .f32 0x00000000#32) i = zeroF :=
  broadcastInDim_apply d hb _ i ix0 (fun a => a.elim0)

/-- The kernel body's spelling of the layer before its rectifier. -/
theorem kernel_affine_at (A : FVec Ideal ⟨2, ![R, K]⟩ .f32) (W : FVec Ideal ⟨2, ![K, N]⟩ .f32)
    (b : FVec Ideal ⟨2, ![1, N]⟩ .f32) (h1 : FTy.bf16.bits < FTy.f32.bits) (h2 : FTy.bf16.bits < FTy.f32.bits)
    (hc : (⟨2, ![1, N]⟩ : Shape).ShapeCasts ⟨2, ![1, N]⟩) (hb : (⟨2, ![1, N]⟩ : Shape).Broadcasts ⟨2, ![R, N]⟩)
    (r : Fin R) (g : Fin N) :
    addf (matmul (DotDims.plain R K N) none (truncf .bf16 A h1) (truncf .bf16 W h2) (constant ⟨2, ![R, N]⟩ .f32 0x00000000#32))
        (broadcastTo ⟨2, ![R, N]⟩ (shapeCast ⟨2, ![1, N]⟩ b hc) hb) (ix2 r g)
      = affineAt A W b r g := by
  rw [addf_apply]
  refine congrArg₂ (· + ·) ?_ ?_
  · exact Cert.LibPlainMatmul.matmul_zero_apply none (truncf .bf16 A h1) (truncf .bf16 W h2) r g
  · rw [Cert.LibBlockLayout.rowBroadcast_at, shapeCast_self]

/-- The host's spelling of the layer before its rectifier, the bias given as a vector. -/
theorem host_affine_at (A : FVec Ideal ⟨2, ![R, K]⟩ .f32) (W : FVec Ideal ⟨2, ![K, N]⟩ .f32)
    (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (r : Fin R) (g : Fin N) :
    addf (Host.dotGeneral (DotDims.plain R K N) none A W)
        (broadcastInDim ⟨2, ![R, N]⟩ d2 hb2 (broadcastInDim ⟨2, ![1, N]⟩ d1 hb1 b)) (ix2 r g)
      = affineAt A W (broadcastInDim ⟨2, ![1, N]⟩ d1 hb1 b) r g := by
  rw [addf_apply]
  refine congrArg₂ (· + ·) ?_ ?_
  · exact Cert.LibPlainDot.dotGeneral_apply none A W r g
  · exact Cert.LibHostRows.bcast_1b_ab_at d2 hd20 hd21 hb2 _ r g

/-- A vector kept as a [1, N] row by a reshape is the same row a broadcast_in_dim along axis 1 makes of it. -/
theorem row_of_vector (b : (⟨1, ![N]⟩ : Shape).Idx → EReal)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (hc : (⟨1, ![N]⟩ : Shape).ShapeCasts ⟨2, ![1, N]⟩) :
    broadcastInDim ⟨2, ![1, N]⟩ d1 hb1 b = shapeCast ⟨2, ![1, N]⟩ b hc := by
  funext i
  obtain ⟨u, j, rfl⟩ : ∃ (u : Fin 1) (j : Fin N), i = ix2 u j := ⟨i 0, i 1, eq_ix2 i⟩
  rw [Cert.LibHostRows.bcast_b_1b_at d1 hd1 hb1 b u j]
  refine (shapeCast_apply b hc (ix2 u j) (ix1 j) ?_).symm
  rw [Shape.rowMajor_val_one, Shape.rowMajor_val_two]
  have hu : u.val = 0 := by omega
  show j.val = u.val * N + j.val
  rw [hu, Nat.zero_mul, Nat.zero_add]

end Cert.SageLayers

end
-- ==== Proof.LibHostLayers.lean ====
/-
  The three layers as the host program spells them — a dot_general, the bias vector made a row and repeated down the
  rows by two broadcast_in_dims, a maximum against the zero matrix — are, as whole matrices on the extended reals, the
  layer functions the kernel's tiles are restrictions of (LibDenseLayers): `host_proj_eq` for max (x · W + b, 0),
  `host_sage_eq` for max ((a · Wl + b) + h · Wr, 0), `host_aff_eq` for x · W + b.  For any extents; the products over
  the plain dimension record, the axis maps and their values taken as hypotheses.
-/
import proofs.«176698_j48481590837453_1_alg».proof.Proof.LibDenseLayers

noncomputable section

open scoped BigOperators

namespace Cert.SageLayers

open Idealize.ShloMosaic Idealize.ShloMosaic.ValueIdx

variable {R K N : ℕ}

/-- max (x · W + b, 0) in the host's spelling. -/
theorem host_proj_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (Host.dotGeneral (DotDims.plain R K N) none A W)
        (broadcastInDim ⟨2, ![R, N]⟩ d2 hb2 (broadcastInDim ⟨2, ![1, N]⟩ d1 hb1 b)))
      (broadcastInDim ⟨2, ![R, N]⟩ d0 hb0 (constant (F := Ideal) ⟨0, ![]⟩ .f32 0x00000000#32))
      = projLayer A W (broadcastInDim ⟨2, ![1, N]⟩ d1 hb1 b) := by
  funext i
  obtain ⟨r, g, rfl⟩ : ∃ (r : Fin R) (g : Fin N), i = ix2 r g := ⟨i 0, i 1, eq_ix2 i⟩
  rw [maximumf_apply, host_zero_at]
  exact congrArg (max · zeroF) (host_affine_at A W b d1 hd1 hb1 d2 hd20 hd21 hb2 r g)

/-- max ((a · Wl + b) + h · Wr, 0) in the host's spelling. -/
theorem host_sage_eq {K' : ℕ} (A : FVec Ideal ⟨2, ![R, K]⟩ .f32) (H : FVec Ideal ⟨2, ![R, K']⟩ .f32)
    (Wl : FVec Ideal ⟨2, ![K, N]⟩ .f32) (b : FVec Ideal ⟨1, ![N]⟩ .f32) (Wr : FVec Ideal ⟨2, ![K', N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    maximumf (addf (addf (Host.dotGeneral (DotDims.plain R K N) none A Wl)
          (broadcastInDim ⟨2, ![R, N]⟩ d2 hb2 (broadcastInDim ⟨2, ![1, N]⟩ d1 hb1 b)))
        (Host.dotGeneral (DotDims.plain R K' N) none H Wr))
      (broadcastInDim ⟨2, ![R, N]⟩ d0 hb0 (constant (F := Ideal) ⟨0, ![]⟩ .f32 0x00000000#32))
      = sageLayer A H Wl (broadcastInDim ⟨2, ![1, N]⟩ d1 hb1 b) Wr := by
  funext i
  obtain ⟨r, g, rfl⟩ : ∃ (r : Fin R) (g : Fin N), i = ix2 r g := ⟨i 0, i 1, eq_ix2 i⟩
  rw [maximumf_apply, host_zero_at, addf_apply]
  exact congrArg (max · zeroF)
    (congrArg₂ (· + ·) (host_affine_at A Wl b d1 hd1 hb1 d2 hd20 hd21 hb2 r g) (host_dot_at H Wr r g))

/-- x · W + b in the host's spelling. -/
theorem host_aff_eq (A : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2) :
    addf (Host.dotGeneral (DotDims.plain R K N) none A W)
        (broadcastInDim ⟨2, ![R, N]⟩ d2 hb2 (broadcastInDim ⟨2, ![1, N]⟩ d1 hb1 b))
      = affLayer A W (broadcastInDim ⟨2, ![1, N]⟩ d1 hb1 b) := by
  funext i
  obtain ⟨r, g, rfl⟩ : ∃ (r : Fin R) (g : Fin N), i = ix2 r g := ⟨i 0, i 1, eq_ix2 i⟩
  exact host_affine_at A W b d1 hd1 hb1 d2 hd20 hd21 hb2 r g

end Cert.SageLayers

end
-- ==== Proof.LibHeteroLayers.lean ====
/-
  The three results of the heterogeneous two-layer network, as whole matrices on the extended reals, and the entries
  of a kernel body's tile read against them.

  One relation's pre-activation at (r, g) is  (Σₖ a (r, k) · Wl (k, g) + b (0, g)) + Σₖ h (r, k) · Wr (k, g):
  the aggregated neighbours through Wl with the bias row, plus the node's own features through Wr.
    * a node set that receives ONE relation ends, per row r, at  Σ_g max (pre (r, g), 0) · Wh (g, 0) + bh (0, 0)  (`headOut`);
    * the node set that receives TWO relations ends at  max (pre₁ (r, g) + pre₂ (r, g), 0)  (`dualOut`).
  A body tile computes the same entries with the bias added last, (a · Wl + h · Wr) + b; on the extended reals addition
  is commutative and associative, so the two groupings agree (`add_right_comm`), with no finiteness needed.
  Every entry depends on ONE row of a and h only (`affineAt_rows`, `dotAt_rows`), which is why a tile of rows of the
  result is the result of the tile of rows (`headOut_rows`, `dualOut_rows`).
-/
import proofs.«176698_j48481590837453_1_alg».proof.Proof.LibDenseLayers

noncomputable section

open scoped BigOperators

namespace Cert.Hetero

open Idealize.ShloMosaic Idealize.ShloMosaic.ValueIdx Cert.SageLayers

variable {R R' K N : ℕ}

/-- x · W + b at (r, g) reads row r of x only. -/
theorem affineAt_rows (A : (⟨2, ![R, K]⟩ : Shape).Idx → EReal) (A' : (⟨2, ![R', K]⟩ : Shape).Idx → EReal)
    (W : (⟨2, ![K, N]⟩ : Shape).Idx → EReal) (b : (⟨2, ![1, N]⟩ : Shape).Idx → EReal) (r : Fin R) (r' : Fin R') (g : Fin N)
    (h : ∀ k : Fin K, A (ix2 r k) = A' (ix2 r' k)) : affineAt A W b r g = affineAt A' W b r' g := by
  unfold affineAt
  rw [Finset.sum_congr rfl (fun k _ => by rw [h k])]

/-- h · W at (r, g) reads row r of h only. -/
theorem dotAt_rows (H : (⟨2, ![R, K]⟩ : Shape).Idx → EReal) (H' : (⟨2, ![R', K]⟩ : Shape).Idx → EReal)
    (W : (⟨2, ![K, N]⟩ : Shape).Idx → EReal) (r : Fin R) (r' : Fin R') (g : Fin N)
    (h : ∀ k : Fin K, H (ix2 r k) = H' (ix2 r' k)) : dotAt H W r g = dotAt H' W r' g := by
  unfold dotAt
  rw [Finset.sum_congr rfl (fun k _ => by rw [h k])]

/-- The result of a node set that receives one relation: the rectified layer through the [K, 1] head and its bias. -/
def headOut (A H : (⟨2, ![R, K]⟩ : Shape).Idx → EReal) (Wl : (⟨2, ![K, N]⟩ : Shape).Idx → EReal)
    (b : (⟨2, ![1, N]⟩ : Shape).Idx → EReal) (Wr : (⟨2, ![K, N]⟩ : Shape).Idx → EReal)
    (Wh : (⟨2, ![N, 1]⟩ : Shape).Idx → EReal) (bh : (⟨2, ![1, 1]⟩ : Shape).Idx → EReal) : (⟨2, ![R, 1]⟩ : Shape).Idx → EReal :=
  affLayer (sageLayer A H Wl b Wr) Wh bh

/-- The result of the node set that receives two relations: the two pre-activations added, then rectified. -/
def dualOut (A1 H : (⟨2, ![R, K]⟩ : Shape).Idx → EReal) (Wl1 : (⟨2, ![K, N]⟩ : Shape).Idx → EReal)
    (b1 : (⟨2, ![1, N]⟩ : Shape).Idx → EReal) (Wr1 : (⟨2, ![K, N]⟩ : Shape).Idx → EReal)
    (A2 : (⟨2, ![R, K]⟩ : Shape).Idx → EReal) (Wl2 : (⟨2, ![K, N]⟩ : Shape).Idx → EReal)
    (b2 : (⟨2, ![1, N]⟩ : Shape).Idx → EReal) (Wr2 : (⟨2, ![K, N]⟩ : Shape).Idx → EReal) : (⟨2, ![R, N]⟩ : Shape).Idx → EReal :=
  fun i => max ((affineAt A1 Wl1 b1 (i 0) (i 1) + dotAt H Wr1 (i 0) (i 1))
    + (affineAt A2 Wl2 b2 (i 0) (i 1) + dotAt H Wr2 (i 0) (i 1))) zeroF

/-- Row r of the rectified layer reads row r of its two inputs only. -/
theorem sageLayer_rows (A H : (⟨2, ![R, K]⟩ : Shape).Idx → EReal) (A' H' : (⟨2, ![R', K]⟩ : Shape).Idx → EReal)
    (Wl : (⟨2, ![K, N]⟩ : Shape).Idx → EReal) (b : (⟨2, ![1, N]⟩ : Shape).Idx → EReal) (Wr : (⟨2, ![K, N]⟩ : Shape).Idx → EReal)
    (r : Fin R) (r' : Fin R') (g : Fin N)
    (hA : ∀ k : Fin K, A (ix2 r k) = A' (ix2 r' k)) (hH : ∀ k : Fin K, H (ix2 r k) = H' (ix2 r' k)) :
    sageLayer A H Wl b Wr (ix2 r g) = sageLayer A' H' Wl b Wr (ix2 r' g) := by
  show max (affineAt A Wl b r g + dotAt H Wr r g) zeroF = max (affineAt A' Wl b r' g + dotAt H' Wr r' g) zeroF
  rw [affineAt_rows A A' Wl b r r' g hA, dotAt_rows H H' Wr r r' g hH]

/-- A tile of rows of the one-relation result is that result of the tiles of rows of its inputs. -/
theorem headOut_rows (A H : (⟨2, ![R, K]⟩ : Shape).Idx → EReal) (A' H' : (⟨2, ![R', K]⟩ : Shape).Idx → EReal)
    (Wl : (⟨2, ![K, N]⟩ : Shape).Idx → EReal) (b : (⟨2, ![1, N]⟩ : Shape).Idx → EReal) (Wr : (⟨2, ![K, N]⟩ : Shape).Idx → EReal)
    (Wh : (⟨2, ![N, 1]⟩ : Shape).Idx → EReal) (bh : (⟨2, ![1, 1]⟩ : Shape).Idx → EReal)
    (r : Fin R) (r' : Fin R') (u : Fin 1)
    (hA : ∀ k : Fin K, A (ix2 r k) = A' (ix2 r' k)) (hH : ∀ k : Fin K, H (ix2 r k) = H' (ix2 r' k)) :
    headOut A H Wl b Wr Wh bh (ix2 r u) = headOut A' H' Wl b Wr Wh bh (ix2 r' u) := by
  show affineAt (sageLayer A H Wl b Wr) Wh bh r u = affineAt (sageLayer A' H' Wl b Wr) Wh bh r' u
  exact affineAt_rows _ _ Wh bh r r' u (fun g => sageLayer_rows A H A' H' Wl b Wr r r' g hA hH)

/-- A tile of rows of the two-relation result is that result of the tiles of rows of its inputs. -/
theorem dualOut_rows (A1 H A2 : (⟨2, ![R, K]⟩ : Shape).Idx → EReal) (A1' H' A2' : (⟨2, ![R', K]⟩ : Shape).Idx → EReal)
    (Wl1 : (⟨2, ![K, N]⟩ : Shape).Idx → EReal) (b1 : (⟨2, ![1, N]⟩ : Shape).Idx → EReal) (Wr1 : (⟨2, ![K, N]⟩ : Shape).Idx → EReal)
    (Wl2 : (⟨2, ![K, N]⟩ : Shape).Idx → EReal) (b2 : (⟨2, ![1, N]⟩ : Shape).Idx → EReal) (Wr2 : (⟨2, ![K, N]⟩ : Shape).Idx → EReal)
    (r : Fin R) (r' : Fin R') (g : Fin N)
    (h1 : ∀ k : Fin K, A1 (ix2 r k) = A1' (ix2 r' k)) (hH : ∀ k : Fin K, H (ix2 r k) = H' (ix2 r' k))
    (h2 : ∀ k : Fin K, A2 (ix2 r k) = A2' (ix2 r' k)) :
    dualOut A1 H Wl1 b1 Wr1 A2 Wl2 b2 Wr2 (ix2 r g) = dualOut A1' H' Wl1 b1 Wr1 A2' Wl2 b2 Wr2 (ix2 r' g) := by
  show max ((affineAt A1 Wl1 b1 r g + dotAt H Wr1 r g) + (affineAt A2 Wl2 b2 r g + dotAt H Wr2 r g)) zeroF
     = max ((affineAt A1' Wl1 b1 r' g + dotAt H' Wr1 r' g) + (affineAt A2' Wl2 b2 r' g + dotAt H' Wr2 r' g)) zeroF
  rw [affineAt_rows A1 A1' Wl1 b1 r r' g h1, dotAt_rows H H' Wr1 r r' g hH,
    affineAt_rows A2 A2' Wl2 b2 r r' g h2, dotAt_rows H H' Wr2 r r' g hH]

/-- One relation's pre-activation in a body tile's grouping, the bias added last, is the reference's grouping. -/
theorem pre_regroup (A H : (⟨2, ![R, K]⟩ : Shape).Idx → EReal) (Wl : (⟨2, ![K, N]⟩ : Shape).Idx → EReal)
    (b : (⟨2, ![1, N]⟩ : Shape).Idx → EReal) (Wr : (⟨2, ![K, N]⟩ : Shape).Idx → EReal) (r : Fin R) (g : Fin N) :
    (dotAt A Wl r g + dotAt H Wr r g) + b (ix2 (0 : Fin 1) g) = affineAt A Wl b r g + dotAt H Wr r g := by
  show (dotAt A Wl r g + dotAt H Wr r g) + b (ix2 (0 : Fin 1) g) = (dotAt A Wl r g + b (ix2 (0 : Fin 1) g)) + dotAt H Wr r g
  exact add_right_comm _ _ _

/-- A body tile of the one-relation kernel, as the body spells it, read at (r, 0). -/
theorem head_body_at (a h : FVec Ideal ⟨2, ![R, K]⟩ .f32) (Wl Wr : FVec Ideal ⟨2, ![K, N]⟩ .f32)
    (b : FVec Ideal ⟨2, ![1, N]⟩ .f32) (Wh : FVec Ideal ⟨2, ![N, 1]⟩ .f32) (bh : FVec Ideal ⟨2, ![1, 1]⟩ .f32)
    (hlt : FTy.bf16.bits < FTy.f32.bits)
    (hca : (⟨2, ![R, K]⟩ : Shape).ShapeCasts ⟨2, ![R, K]⟩)
    (hcb : (⟨2, ![1, N]⟩ : Shape).ShapeCasts ⟨2, ![1, N]⟩) (hbb : (⟨2, ![1, N]⟩ : Shape).Broadcasts ⟨2, ![R, N]⟩)
    (hch : (⟨2, ![1, 1]⟩ : Shape).ShapeCasts ⟨2, ![1, 1]⟩) (hbh : (⟨2, ![1, 1]⟩ : Shape).Broadcasts ⟨2, ![R, 1]⟩)
    (r : Fin R) (u : Fin 1) :
    addf (matmul (DotDims.plain R N 1) none
          (truncf .bf16 (maximumf
            (addf (addf
              (matmul (DotDims.plain R K N) none (truncf .bf16 (shapeCast ⟨2, ![R, K]⟩ a hca) hlt) (truncf .bf16 Wl hlt)
                (constant ⟨2, ![R, N]⟩ .f32 0x00000000#32))
              (matmul (DotDims.plain R K N) none (truncf .bf16 h hlt) (truncf .bf16 Wr hlt)
                (constant ⟨2, ![R, N]⟩ .f32 0x00000000#32)))
              (broadcastTo ⟨2, ![R, N]⟩ (shapeCast ⟨2, ![1, N]⟩ b hcb) hbb))
            (broadcast ⟨2, ![R, N]⟩ (Scalar.ofBits (F := Ideal) .f32 0x00000000#32))) hlt)
          (truncf .bf16 Wh hlt) (constant ⟨2, ![R, 1]⟩ .f32 0x00000000#32))
        (broadcastTo ⟨2, ![R, 1]⟩ (shapeCast ⟨2, ![1, 1]⟩ bh hch) hbh) (ix2 r u)
      = headOut a h Wl b Wr Wh bh (ix2 r u) := by
  refine (kernel_affine_at _ Wh bh hlt hlt hch hbh r u).trans ?_
  show affineAt _ Wh bh r u = affineAt (sageLayer a h Wl b Wr) Wh bh r u
  refine affineAt_rows _ _ Wh bh r r u (fun g => ?_)
  rw [maximumf_apply, addf_apply, addf_apply, broadcast_apply, kernel_dot_at, kernel_dot_at,
    Cert.LibBlockLayout.rowBroadcast_at, shapeCast_self, shapeCast_self, pre_regroup]
  rfl

/-- A body tile of the two-relation kernel, as the body spells it, read at (r, g). -/
theorem dual_body_at (x a1 a2 : FVec Ideal ⟨2, ![R, K]⟩ .f32) (Wl1 Wr1 Wl2 Wr2 : FVec Ideal ⟨2, ![K, N]⟩ .f32)
    (b1 b2 : FVec Ideal ⟨2, ![1, N]⟩ .f32)
    (hlt : FTy.bf16.bits < FTy.f32.bits)
    (hca : (⟨2, ![R, K]⟩ : Shape).ShapeCasts ⟨2, ![R, K]⟩)
    (hcb : (⟨2, ![1, N]⟩ : Shape).ShapeCasts ⟨2, ![1, N]⟩) (hbb : (⟨2, ![1, N]⟩ : Shape).Broadcasts ⟨2, ![R, N]⟩)
    (r : Fin R) (g : Fin N) :
    maximumf
        (addf
          (addf (addf
              (matmul (DotDims.plain R K N) none (truncf .bf16 (shapeCast ⟨2, ![R, K]⟩ a1 hca) hlt) (truncf .bf16 Wl1 hlt)
                (constant ⟨2, ![R, N]⟩ .f32 0x00000000#32))
              (matmul (DotDims.plain R K N) none (truncf .bf16 x hlt) (truncf .bf16 Wr1 hlt)
                (constant ⟨2, ![R, N]⟩ .f32 0x00000000#32)))
            (broadcastTo ⟨2, ![R, N]⟩ (shapeCast ⟨2, ![1, N]⟩ b1 hcb) hbb))
          (addf (addf
              (matmul (DotDims.plain R K N) none (truncf .bf16 (shapeCast ⟨2, ![R, K]⟩ a2 hca) hlt) (truncf .bf16 Wl2 hlt)
                (constant ⟨2, ![R, N]⟩ .f32 0x00000000#32))
              (matmul (DotDims.plain R K N) none (truncf .bf16 x hlt) (truncf .bf16 Wr2 hlt)
                (constant ⟨2, ![R, N]⟩ .f32 0x00000000#32)))
            (broadcastTo ⟨2, ![R, N]⟩ (shapeCast ⟨2, ![1, N]⟩ b2 hcb) hbb)))
        (broadcast ⟨2, ![R, N]⟩ (Scalar.ofBits (F := Ideal) .f32 0x00000000#32)) (ix2 r g)
      = dualOut a1 x Wl1 b1 Wr1 a2 Wl2 b2 Wr2 (ix2 r g) := by
  rw [maximumf_apply, addf_apply, addf_apply, addf_apply, addf_apply, addf_apply, broadcast_apply,
    kernel_dot_at, kernel_dot_at, kernel_dot_at, kernel_dot_at,
    Cert.LibBlockLayout.rowBroadcast_at, Cert.LibBlockLayout.rowBroadcast_at,
    shapeCast_self, shapeCast_self, shapeCast_self, shapeCast_self, pre_regroup, pre_regroup]
  rfl

end Cert.Hetero

end
-- ==== Proof.LibSigmoid.lean ====
/-
  The logistic function on the extended reals in its two spellings, and three small facts that travel with it.

  A kernel's logistic operation is, on the extended reals, 1 / (1 + e⁻ˣ) with the conventions 0 at -∞ and 1 at +∞. A host
  program that spells the sigmoid as a negation, an exponential, a sum with the word of 1.0 and a quotient of that word
  by the sum denotes the same function: the word 0x3F800000 is the number one. Beside it: the logistic function and the
  hyperbolic tangent of a vector read at an entry, and the fact that four terms added to a start value one after the
  other are the start value plus their sum (an accumulator over four unrolled steps against a reduction), in any
  commutative additive monoid.
-/
import Idealize.ShloMosaic.PureOps.Ideal
import Idealize.ShloMosaic.Lib.ValueIdx
import Mathlib.Algebra.BigOperators.Fin

noncomputable section

open scoped BigOperators

namespace Cert.LibSigmoid

open Idealize.ShloMosaic

/-- The word of 1.0 denotes the number one. -/
theorem oneW : Ideal.ofBits .f32 0x3F800000#32 = 1 := by
  simp [Ideal.ofBits, Ideal.ieee, -EReal.coe_mul]; norm_num

/-- The sigmoid spelt with the word of 1.0, a negation, an exponential, a sum and a quotient is the logistic function,
    at every extended real. -/
theorem logistic_spelt (x : EReal) :
    Ideal.div (Ideal.ofBits .f32 0x3F800000#32) (Ideal.ofBits .f32 0x3F800000#32 + Ideal.exp (-x)) = Ideal.logistic x := by
  rw [oneW]; rfl

/-- The logistic function of a vector, at an entry. -/
theorem logistic_at {s : Shape} {φ : FTy} (v : FVec Ideal s φ) (i : s.Idx) : logistic v i = Ideal.logistic (v i) := rfl

/-- The hyperbolic tangent of a vector, at an entry. -/
theorem tanh_at {s : Shape} {φ : FTy} (v : FVec Ideal s φ) (i : s.Idx) : tanh v i = Ideal.tanh (v i) := rfl

/-- Four terms added to a start value one after the other are the start value plus their sum. -/
theorem chain4 {M : Type*} [AddCommMonoid M] (z : M) (t : Fin 4 → M) :
    (((z + t 0) + t 1) + t 2) + t 3 = z + ∑ k : Fin 4, t k := by
  rw [Fin.sum_univ_four]
  simp only [add_assoc]

end Cert.LibSigmoid

end
-- ==== Proof.LibSageNet.lean ====
/-
  The two layer functions of the network, as whole matrices on the extended reals, in the spellings of a kernel
  body's tile and of the host program.

  A GraphSAGE layer with mean aggregation takes the aggregated neighbours a and the node's own features h to
  max ((a · Wl + b) + h · Wr, 0); the output layer takes h to logistic (h · W + b).  A body tile computes the first with
  the bias added last, (a · Wl + h · Wr) + b: on the extended reals addition is commutative and associative, so the
  groupings agree, with no finiteness needed.  The host spells the logistic function as 1 / (1 + exp (-x)), which is the
  same function at every extended real, the infinities included.  Every entry of either layer depends on ONE row of
  the row-indexed inputs, so a tile of rows of the result is the result of the tile of rows.
-/
import proofs.«176698_j48481590837453_1_alg».proof.Proof.LibDenseLayers
import proofs.«176698_j48481590837453_1_alg».proof.Proof.LibHostLayers
import proofs.«176698_j48481590837453_1_alg».proof.Proof.LibHeteroLayers
import proofs.«176698_j48481590837453_1_alg».proof.Proof.LibSigmoid

noncomputable section

open scoped BigOperators

namespace Cert.SageNet

open Idealize.ShloMosaic Idealize.ShloMosaic.ValueIdx Cert.SageLayers Cert.Hetero

variable {R R' K N : ℕ}

/-- The output layer logistic (h · W + b) as a whole matrix. -/
def headLayer (H : (⟨2, ![R, K]⟩ : Shape).Idx → EReal) (W : (⟨2, ![K, N]⟩ : Shape).Idx → EReal)
    (b : (⟨2, ![1, N]⟩ : Shape).Idx → EReal) : (⟨2, ![R, N]⟩ : Shape).Idx → EReal :=
  fun i => Ideal.logistic (affineAt H W b (i 0) (i 1))

/-- Row r of the output layer reads row r of its input only. -/
theorem headLayer_rows (H : (⟨2, ![R, K]⟩ : Shape).Idx → EReal) (H' : (⟨2, ![R', K]⟩ : Shape).Idx → EReal)
    (W : (⟨2, ![K, N]⟩ : Shape).Idx → EReal) (b : (⟨2, ![1, N]⟩ : Shape).Idx → EReal) (r : Fin R) (r' : Fin R') (g : Fin N)
    (h : ∀ k : Fin K, H (ix2 r k) = H' (ix2 r' k)) : headLayer H W b (ix2 r g) = headLayer H' W b (ix2 r' g) := by
  show Ideal.logistic (affineAt H W b r g) = Ideal.logistic (affineAt H' W b r' g)
  rw [affineAt_rows H H' W b r r' g h]

/-- A body tile of a GraphSAGE layer, as the body spells it (the bias added last), read at (r, g). -/
theorem sage_body_at (a h : FVec Ideal ⟨2, ![R, K]⟩ .f32) (Wl Wr : FVec Ideal ⟨2, ![K, N]⟩ .f32)
    (b : FVec Ideal ⟨2, ![1, N]⟩ .f32) (hlt : FTy.bf16.bits < FTy.f32.bits)
    (hcb : (⟨2, ![1, N]⟩ : Shape).ShapeCasts ⟨2, ![1, N]⟩) (hbb : (⟨2, ![1, N]⟩ : Shape).Broadcasts ⟨2, ![R, N]⟩)
    (r : Fin R) (g : Fin N) :
    maximumf
        (addf (addf
            (matmul (DotDims.plain R K N) none (truncf .bf16 a hlt) (truncf .bf16 Wl hlt)
              (constant ⟨2, ![R, N]⟩ .f32 0x00000000#32))
            (matmul (DotDims.plain R K N) none (truncf .bf16 h hlt) (truncf .bf16 Wr hlt)
              (constant ⟨2, ![R, N]⟩ .f32 0x00000000#32)))
          (broadcastTo ⟨2, ![R, N]⟩ (shapeCast ⟨2, ![1, N]⟩ b hcb) hbb))
        (broadcast ⟨2, ![R, N]⟩ (Scalar.ofBits (F := Ideal) .f32 0x00000000#32)) (ix2 r g)
      = sageLayer a h Wl b Wr (ix2 r g) := by
  rw [maximumf_apply, addf_apply, addf_apply, broadcast_apply, kernel_dot_at, kernel_dot_at,
    Cert.LibBlockLayout.rowBroadcast_at, shapeCast_self, pre_regroup]
  rfl

/-- A body tile of the output layer, as the body spells it, read at (r, g). -/
theorem head_body_at (h : FVec Ideal ⟨2, ![R, K]⟩ .f32) (W : FVec Ideal ⟨2, ![K, N]⟩ .f32)
    (b : FVec Ideal ⟨2, ![1, N]⟩ .f32) (hlt : FTy.bf16.bits < FTy.f32.bits)
    (hcb : (⟨2, ![1, N]⟩ : Shape).ShapeCasts ⟨2, ![1, N]⟩) (hbb : (⟨2, ![1, N]⟩ : Shape).Broadcasts ⟨2, ![R, N]⟩)
    (r : Fin R) (g : Fin N) :
    logistic
        (addf (matmul (DotDims.plain R K N) none (truncf .bf16 h hlt) (truncf .bf16 W hlt)
            (constant ⟨2, ![R, N]⟩ .f32 0x00000000#32))
          (broadcastTo ⟨2, ![R, N]⟩ (shapeCast ⟨2, ![1, N]⟩ b hcb) hbb)) (ix2 r g)
      = headLayer h W b (ix2 r g) := by
  rw [Cert.LibSigmoid.logistic_at]
  exact congrArg Ideal.logistic (kernel_affine_at h W b hlt hlt hcb hbb r g)

/-- The output layer in the host's spelling: the quotient of the word of 1.0 by that word plus the exponential of the
    negated pre-activation. -/
theorem host_head_eq (H : FVec Ideal ⟨2, ![R, K]⟩ .f32) (W : FVec Ideal ⟨2, ![K, N]⟩ .f32) (b : FVec Ideal ⟨1, ![N]⟩ .f32)
    (d1 : Fin (⟨1, ![N]⟩ : Shape).rank → Fin (⟨2, ![1, N]⟩ : Shape).rank) (hd1 : d1 0 = 1)
    (hb1 : (⟨1, ![N]⟩ : Shape).BroadcastsInDim ⟨2, ![1, N]⟩ d1)
    (d2 : Fin (⟨2, ![1, N]⟩ : Shape).rank → Fin (⟨2, ![R, N]⟩ : Shape).rank) (hd20 : d2 0 = 0) (hd21 : d2 1 = 1)
    (hb2 : (⟨2, ![1, N]⟩ : Shape).BroadcastsInDim ⟨2, ![R, N]⟩ d2)
    (d0 : Fin (⟨0, ![]⟩ : Shape).rank → Fin (⟨2, ![R, N]⟩ : Shape).rank)
    (hb0 : (⟨0, ![]⟩ : Shape).BroadcastsInDim ⟨2, ![R, N]⟩ d0) :
    Host.divf (broadcastInDim ⟨2, ![R, N]⟩ d0 hb0 (constant (F := Ideal) ⟨0, ![]⟩ .f32 0x3F800000#32))
      (addf (broadcastInDim ⟨2, ![R, N]⟩ d0 hb0 (constant (F := Ideal) ⟨0, ![]⟩ .f32 0x3F800000#32))
        (Host.exp (Host.negf (addf (Host.dotGeneral (DotDims.plain R K N) none H W)
          (broadcastInDim ⟨2, ![R, N]⟩ d2 hb2 (broadcastInDim ⟨2, ![1, N]⟩ d1 hb1 b))))))
      = headLayer H W (broadcastInDim ⟨2, ![1, N]⟩ d1 hb1 b) := by
  funext i
  obtain ⟨r, g, rfl⟩ : ∃ (r : Fin R) (g : Fin N), i = ix2 r g := ⟨i 0, i 1, eq_ix2 i⟩
  have hone : ∀ j : (⟨2, ![R, N]⟩ : Shape).Idx,
      broadcastInDim ⟨2, ![R, N]⟩ d0 hb0 (constant (F := Ideal) ⟨0, ![]⟩ .f32 0x3F800000#32) j
        = Ideal.ofBits .f32 0x3F800000#32 := fun j => broadcastInDim_apply d0 hb0 _ j ix0 (fun a => a.elim0)
  have haff := host_affine_at H W b d1 hd1 hb1 d2 hd20 hd21 hb2 r g
  show Ideal.div (broadcastInDim ⟨2, ![R, N]⟩ d0 hb0 (constant (F := Ideal) ⟨0, ![]⟩ .f32 0x3F800000#32) (ix2 r g))
      (broadcastInDim ⟨2, ![R, N]⟩ d0 hb0 (constant (F := Ideal) ⟨0, ![]⟩ .f32 0x3F800000#32) (ix2 r g)
        + Ideal.exp (-(addf (Host.dotGeneral (DotDims.plain R K N) none H W)
          (broadcastInDim ⟨2, ![R, N]⟩ d2 hb2 (broadcastInDim ⟨2, ![1, N]⟩ d1 hb1 b)) (ix2 r g))))
    = Ideal.logistic (affineAt H W (broadcastInDim ⟨2, ![1, N]⟩ d1 hb1 b) r g)
  rw [hone, haff]
  exact Cert.LibSigmoid.logistic_spelt _

end Cert.SageNet

end
-- ==== Proof.Region0.lean ====
/-
  Region 0 of the idealized kernel program: the first GraphSAGE layer, tile by tile.

  The grid has 20 points; point t takes rows 5000 t … 5000 t + 4999 of the aggregated neighbours and of the node features,
  the two weight matrices and the bias row whole, and writes rows 5000 t … 5000 t + 4999 of the output.  An entry of
  the layer depends on one row of the row-indexed inputs only, so what point t writes back is block t of the layer of
  the WHOLE arrays as the region finds them; the 20 blocks tile the output array, which therefore ends holding that
  layer.
-/
import proofs.«176698_j48481590837453_1_alg».proof.Proof.Gen.KernelIdeal.Frame
import proofs.«176698_j48481590837453_1_alg».proof.Proof.LibSageNet

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers Cert.Hetero Cert.SageNet

theorem hz : (![0, 0] : Fin 2 → Nat) = fun _ => 0 := funext fun a => by fin_cases a <;> rfl

/-- The body's stored value is the layer of the blocks it loaded. -/
theorem pay_eq (x0 x1 : Vec Ideal S5000x64 .f32) (x2 x4 : Vec Ideal S64x128 .f32) (x3 : Vec Ideal S1x128 .f32) :
    k0_pay1 (F := Ideal) x0 x1 x2 x4 x3 = sageLayer (R := 5000) (K := 64) (N := 128) x0 x1 x2 x3 x4 := by
  funext j
  obtain ⟨p, q, rfl⟩ : ∃ (p : Fin 5000) (q : Fin 128), j = ix2 p q := ⟨j 0, j 1, eq_ix2 j⟩
  refine (sage_body_at (shapeCast S5000x64 x0 shapeCasts_S5000x64_S5000x64) x1 x2 x4 x3 bitsLt_bf16_f32
    shapeCasts_S1x128_S1x128 broadcasts_S1x128_S5000x128 p q).trans ?_
  rw [shapeCast_self]

/-- The output window's staging buffer after the body, as one function of the input blocks. -/
theorem out_eq (x0 x1 : Vec Ideal S5000x64 .f32) (x2 : Vec Ideal S64x128 .f32) (x3 : Vec Ideal S1x128 .f32) (x4 : Vec Ideal S64x128 .f32) :
    out0_5 (F := Ideal) x0 x1 x2 x3 x4 = sageLayer (R := 5000) (K := 64) (N := 128) x0 x1 x2 x3 x4 := by
  unfold out0_5
  rw [View.canon_unit_zero hz]
  simp only [View.ld_unit_zero (S := S5000x64) hz, View.ld_unit_zero (S := S64x128) hz, View.ld_unit_zero (S := S1x128) hz]
  exact pay_eq x0 x1 x2 x4 x3

section Value

variable (V : (c : Dev nD) → (b : Ref sig .tc) → Buf (Elt Ideal) ((c : Thread nD τ).loc b))

/-- The printed index maps over the grid: the two row-indexed inputs move with the output's row block, the weights
    and the bias row stay whole, and the output's row block is the point's number. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (1 : Fin 2) = 0 ∧ win0_5.index t (0 : Fin 2) = t.val :=
  (by decide +kernel : ∀ t : Fin grid0.N, _)

/-- The layer of the whole arrays as the region finds them. -/
abbrev layer (c : Dev nD) : Buf (Elt Ideal) ((c : Thread nD τ).loc main_v24) :=
  sageLayer (R := 100000) (K := 64) (N := 128) (V c main_v22) (V c main_arg0) (V c main_arg2) (V c main_v23) (V c main_arg4)

/-- The first weight matrix's block is the whole matrix. -/
theorem blk2 (c : Dev nD) (t : Fin cfg0.N) : (iblk0 V c 2 t : Vec Ideal S64x128 .f32) = V c main_arg2 := by
  obtain ⟨-, -, -, -, e0, e1, -⟩ := idx_facts t
  funext j
  unfold iblk0
  rw [View.read_apply]
  show V c main_arg2 _ = V c main_arg2 j
  refine congrArg (V c main_arg2) (funext fun a => Fin.ext ?_)
  match a with
  | ⟨0, _⟩ => show win0_2.index t (0 : Fin 2) * 64 + 1 * (j 0).val = (j 0).val; rw [e0]; omega
  | ⟨1, _⟩ => show win0_2.index t (1 : Fin 2) * 128 + 1 * (j 1).val = (j 1).val; rw [e1]; omega

/-- The bias row's block is the whole row. -/
theorem blk3 (c : Dev nD) (t : Fin cfg0.N) : (iblk0 V c 3 t : Vec Ideal S1x128 .f32) = V c main_v23 := by
  obtain ⟨-, -, -, -, -, -, e0, e1, -⟩ := idx_facts t
  funext j
  unfold iblk0
  rw [View.read_apply]
  show V c main_v23 _ = V c main_v23 j
  refine congrArg (V c main_v23) (funext fun a => Fin.ext ?_)
  match a with
  | ⟨0, _⟩ => show win0_3.index t (0 : Fin 2) * 1 + 1 * (j 0).val = (j 0).val; rw [e0]; omega
  | ⟨1, _⟩ => show win0_3.index t (1 : Fin 2) * 128 + 1 * (j 1).val = (j 1).val; rw [e1]; omega

/-- The second weight matrix's block is the whole matrix. -/
theorem blk4 (c : Dev nD) (t : Fin cfg0.N) : (iblk0 V c 4 t : Vec Ideal S64x128 .f32) = V c main_arg4 := by
  obtain ⟨-, -, -, -, -, -, -, -, e0, e1, -⟩ := idx_facts t
  funext j
  unfold iblk0
  rw [View.read_apply]
  show V c main_arg4 _ = V c main_arg4 j
  refine congrArg (V c main_arg4) (funext fun a => Fin.ext ?_)
  match a with
  | ⟨0, _⟩ => show win0_4.index t (0 : Fin 2) * 64 + 1 * (j 0).val = (j 0).val; rw [e0]; omega
  | ⟨1, _⟩ => show win0_4.index t (1 : Fin 2) * 128 + 1 * (j 1).val = (j 1).val; rw [e1]; omega

/-- Row p of the aggregated neighbours' block at point t is row 5000 t + p of the array. -/
theorem blk0_at (c : Dev nD) (t : Fin cfg0.N) (p : Fin 5000) (k : Fin 64) (h : t.val * 5000 + p.val < 100000) :
    (iblk0 V c 0 t : Vec Ideal S5000x64 .f32) (ix2 p k) = V c main_v22 (ix2 ⟨t.val * 5000 + p.val, h⟩ k) := by
  obtain ⟨e0, e1, -, -, -, -, -, -, -, -, -, e5⟩ := idx_facts t
  unfold iblk0
  rw [View.read_apply]
  show V c main_v22 _ = _
  refine congrArg (V c main_v22) (funext fun a => Fin.ext ?_)
  match a with
  | ⟨0, _⟩ => show win0_0.index t (0 : Fin 2) * 5000 + 1 * p.val = t.val * 5000 + p.val; rw [e0, e5]; omega
  | ⟨1, _⟩ => show win0_0.index t (1 : Fin 2) * 64 + 1 * k.val = k.val; rw [e1]; omega

/-- Row p of the features' block at point t is row 5000 t + p of the array. -/
theorem blk1_at (c : Dev nD) (t : Fin cfg0.N) (p : Fin 5000) (k : Fin 64) (h : t.val * 5000 + p.val < 100000) :
    (iblk0 V c 1 t : Vec Ideal S5000x64 .f32) (ix2 p k) = V c main_arg0 (ix2 ⟨t.val * 5000 + p.val, h⟩ k) := by
  obtain ⟨-, -, e0, e1, -, -, -, -, -, -, -, e5⟩ := idx_facts t
  unfold iblk0
  rw [View.read_apply]
  show V c main_arg0 _ = _
  refine congrArg (V c main_arg0) (funext fun a => Fin.ext ?_)
  match a with
  | ⟨0, _⟩ => show win0_1.index t (0 : Fin 2) * 5000 + 1 * p.val = t.val * 5000 + p.val; rw [e0, e5]; omega
  | ⟨1, _⟩ => show win0_1.index t (1 : Fin 2) * 64 + 1 * k.val = k.val; rw [e1]; omega

/-- What point t writes back is block t of the layer of the whole arrays. -/
theorem flushed_eq (c : Dev nD) (t : Fin cfg0.N) :
    (dat0 V c).flushed 5 t = ((cfg0.win 5).blk t).view.read (Elt Ideal) (layer V c) := by
  show (cfg0.win 5).cut (grid0.coords t) ((dat0 V c).after 5 t) = _
  rw [after0_5, out_eq, blk2, blk3, blk4]
  obtain ⟨-, -, -, -, -, -, -, -, -, -, e1, e5⟩ := idx_facts t
  have ht : t.val < 20 := t.isLt
  refine funext fun (j : S5000x128.Idx) => ?_
  obtain ⟨p, q, rfl⟩ : ∃ (p : Fin 5000) (q : Fin 128), j = ix2 p q := ⟨j 0, j 1, eq_ix2 j⟩
  have hp : t.val * 5000 + p.val < 100000 := by have := p.isLt; omega
  rw [View.read_apply]
  have he : ((cfg0.win 5).blk t).view.emb (ix2 p q) = (ix2 ⟨t.val * 5000 + p.val, hp⟩ q : S100000x128.Idx) :=
    funext fun a => Fin.ext (by
      match a with
      | ⟨0, _⟩ => show win0_5.index t (0 : Fin 2) * 5000 + 1 * p.val = t.val * 5000 + p.val; rw [e5]; omega
      | ⟨1, _⟩ => show win0_5.index t (1 : Fin 2) * 128 + 1 * q.val = q.val; rw [e1]; omega)
  rw [he]
  exact sageLayer_rows _ _ _ _ _ _ _ p ⟨t.val * 5000 + p.val, hp⟩ q
    (fun k => blk0_at V c t p k hp) (fun k => blk1_at V c t p k hp)

/-- Every row of the output array is in some point's block. -/
theorem cover (i : S100000x128.Idx) : ∃ t : Fin cfg0.N, (cfg0.win 5).flush t = true ∧ i ∈ ((cfg0.win 5).blk t).view.set := by
  have h0 : (i 0).val < 100000 := (i 0).isLt
  have h1 : (i 1).val < 128 := (i 1).isLt
  let t : Fin cfg0.N := ⟨(i 0).val / 5000, by show (i 0).val / 5000 < 20; omega⟩
  obtain ⟨-, -, -, -, -, -, -, -, -, -, e1, e5⟩ := idx_facts t
  refine ⟨t, flush0_5 t, ?_⟩
  show i ∈ ((View.whole main_v24).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e5]; show (i 0).val / 5000 * 5000 ≤ (i 0).val ∧ (i 0).val < (i 0).val / 5000 * 5000 + 5000; omega
  | ⟨1, _⟩ =>
    show win0_5.index t (1 : Fin 2) * 128 ≤ (i 1).val ∧ (i 1).val < win0_5.index t (1 : Fin 2) * 128 + 128
    rw [e1]; omega

/-- The output array after the region: the layer of the whole arrays as the region finds them. -/
theorem value (c : Dev nD) : (dat0 V c).arrAt 5 cfg0.N = layer V c :=
  (dat0 V c).arrAt_eq_of_cover 5 (layer V c) (fun t _ => flushed_eq V c t) cover

end Value

end Cert.KernelIdeal.Region0

end
-- ==== Proof.Region1.lean ====
/-
  Region 1 of the idealized kernel program: the second GraphSAGE layer, tile by tile.

  The grid has 20 points; point t takes rows 5000 t … 5000 t + 4999 of the aggregated neighbours and of the first layer's output,
  the two weight matrices and the bias row whole, and writes rows 5000 t … 5000 t + 4999 of the output.  An entry of
  the layer depends on one row of the row-indexed inputs only, so what point t writes back is block t of the layer of
  the WHOLE arrays as the region finds them; the 20 blocks tile the output array, which therefore ends holding that
  layer.
-/
import proofs.«176698_j48481590837453_1_alg».proof.Proof.Gen.KernelIdeal.Frame
import proofs.«176698_j48481590837453_1_alg».proof.Proof.LibSageNet

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers Cert.Hetero Cert.SageNet

theorem hz : (![0, 0] : Fin 2 → Nat) = fun _ => 0 := funext fun a => by fin_cases a <;> rfl

/-- The body's stored value is the layer of the blocks it loaded. -/
theorem pay_eq (x0 x1 : Vec Ideal S5000x128 .f32) (x2 x4 : Vec Ideal S128x64 .f32) (x3 : Vec Ideal S1x64 .f32) :
    k1_pay1 (F := Ideal) x0 x1 x2 x4 x3 = sageLayer (R := 5000) (K := 128) (N := 64) x0 x1 x2 x3 x4 := by
  funext j
  obtain ⟨p, q, rfl⟩ : ∃ (p : Fin 5000) (q : Fin 64), j = ix2 p q := ⟨j 0, j 1, eq_ix2 j⟩
  refine (sage_body_at (shapeCast S5000x128 x0 shapeCasts_S5000x128_S5000x128) (shapeCast S5000x128 x1 shapeCasts_S5000x128_S5000x128) x2 x4 x3 bitsLt_bf16_f32
    shapeCasts_S1x64_S1x64 broadcasts_S1x64_S5000x64 p q).trans ?_
  rw [shapeCast_self, shapeCast_self]

/-- The output window's staging buffer after the body, as one function of the input blocks. -/
theorem out_eq (x0 x1 : Vec Ideal S5000x128 .f32) (x2 : Vec Ideal S128x64 .f32) (x3 : Vec Ideal S1x64 .f32) (x4 : Vec Ideal S128x64 .f32) :
    out1_5 (F := Ideal) x0 x1 x2 x3 x4 = sageLayer (R := 5000) (K := 128) (N := 64) x0 x1 x2 x3 x4 := by
  unfold out1_5
  rw [View.canon_unit_zero hz]
  simp only [View.ld_unit_zero (S := S5000x128) hz, View.ld_unit_zero (S := S128x64) hz, View.ld_unit_zero (S := S1x64) hz]
  exact pay_eq x0 x1 x2 x4 x3

section Value

variable (V : (c : Dev nD) → (b : Ref sig .tc) → Buf (Elt Ideal) ((c : Thread nD τ).loc b))

/-- The printed index maps over the grid: the two row-indexed inputs move with the output's row block, the weights
    and the bias row stay whole, and the output's row block is the point's number. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (1 : Fin 2) = 0 ∧ win1_5.index t (0 : Fin 2) = t.val :=
  (by decide +kernel : ∀ t : Fin grid1.N, _)

/-- The layer of the whole arrays as the region finds them. -/
abbrev layer (c : Dev nD) : Buf (Elt Ideal) ((c : Thread nD τ).loc main_v45) :=
  sageLayer (R := 100000) (K := 128) (N := 64) (V c main_v43) (V c main_v24) (V c main_arg5) (V c main_v44) (V c main_arg7)

/-- The first weight matrix's block is the whole matrix. -/
theorem blk2 (c : Dev nD) (t : Fin cfg1.N) : (iblk1 V c 2 t : Vec Ideal S128x64 .f32) = V c main_arg5 := by
  obtain ⟨-, -, -, -, e0, e1, -⟩ := idx_facts t
  funext j
  unfold iblk1
  rw [View.read_apply]
  show V c main_arg5 _ = V c main_arg5 j
  refine congrArg (V c main_arg5) (funext fun a => Fin.ext ?_)
  match a with
  | ⟨0, _⟩ => show win1_2.index t (0 : Fin 2) * 128 + 1 * (j 0).val = (j 0).val; rw [e0]; omega
  | ⟨1, _⟩ => show win1_2.index t (1 : Fin 2) * 64 + 1 * (j 1).val = (j 1).val; rw [e1]; omega

/-- The bias row's block is the whole row. -/
theorem blk3 (c : Dev nD) (t : Fin cfg1.N) : (iblk1 V c 3 t : Vec Ideal S1x64 .f32) = V c main_v44 := by
  obtain ⟨-, -, -, -, -, -, e0, e1, -⟩ := idx_facts t
  funext j
  unfold iblk1
  rw [View.read_apply]
  show V c main_v44 _ = V c main_v44 j
  refine congrArg (V c main_v44) (funext fun a => Fin.ext ?_)
  match a with
  | ⟨0, _⟩ => show win1_3.index t (0 : Fin 2) * 1 + 1 * (j 0).val = (j 0).val; rw [e0]; omega
  | ⟨1, _⟩ => show win1_3.index t (1 : Fin 2) * 64 + 1 * (j 1).val = (j 1).val; rw [e1]; omega

/-- The second weight matrix's block is the whole matrix. -/
theorem blk4 (c : Dev nD) (t : Fin cfg1.N) : (iblk1 V c 4 t : Vec Ideal S128x64 .f32) = V c main_arg7 := by
  obtain ⟨-, -, -, -, -, -, -, -, e0, e1, -⟩ := idx_facts t
  funext j
  unfold iblk1
  rw [View.read_apply]
  show V c main_arg7 _ = V c main_arg7 j
  refine congrArg (V c main_arg7) (funext fun a => Fin.ext ?_)
  match a with
  | ⟨0, _⟩ => show win1_4.index t (0 : Fin 2) * 128 + 1 * (j 0).val = (j 0).val; rw [e0]; omega
  | ⟨1, _⟩ => show win1_4.index t (1 : Fin 2) * 64 + 1 * (j 1).val = (j 1).val; rw [e1]; omega

/-- Row p of the aggregated neighbours' block at point t is row 5000 t + p of the array. -/
theorem blk0_at (c : Dev nD) (t : Fin cfg1.N) (p : Fin 5000) (k : Fin 128) (h : t.val * 5000 + p.val < 100000) :
    (iblk1 V c 0 t : Vec Ideal S5000x128 .f32) (ix2 p k) = V c main_v43 (ix2 ⟨t.val * 5000 + p.val, h⟩ k) := by
  obtain ⟨e0, e1, -, -, -, -, -, -, -, -, -, e5⟩ := idx_facts t
  unfold iblk1
  rw [View.read_apply]
  show V c main_v43 _ = _
  refine congrArg (V c main_v43) (funext fun a => Fin.ext ?_)
  match a with
  | ⟨0, _⟩ => show win1_0.index t (0 : Fin 2) * 5000 + 1 * p.val = t.val * 5000 + p.val; rw [e0, e5]; omega
  | ⟨1, _⟩ => show win1_0.index t (1 : Fin 2) * 128 + 1 * k.val = k.val; rw [e1]; omega

/-- Row p of the features' block at point t is row 5000 t + p of the array. -/
theorem blk1_at (c : Dev nD) (t : Fin cfg1.N) (p : Fin 5000) (k : Fin 128) (h : t.val * 5000 + p.val < 100000) :
    (iblk1 V c 1 t : Vec Ideal S5000x128 .f32) (ix2 p k) = V c main_v24 (ix2 ⟨t.val * 5000 + p.val, h⟩ k) := by
  obtain ⟨-, -, e0, e1, -, -, -, -, -, -, -, e5⟩ := idx_facts t
  unfold iblk1
  rw [View.read_apply]
  show V c main_v24 _ = _
  refine congrArg (V c main_v24) (funext fun a => Fin.ext ?_)
  match a with
  | ⟨0, _⟩ => show win1_1.index t (0 : Fin 2) * 5000 + 1 * p.val = t.val * 5000 + p.val; rw [e0, e5]; omega
  | ⟨1, _⟩ => show win1_1.index t (1 : Fin 2) * 128 + 1 * k.val = k.val; rw [e1]; omega

/-- What point t writes back is block t of the layer of the whole arrays. -/
theorem flushed_eq (c : Dev nD) (t : Fin cfg1.N) :
    (dat1 V c).flushed 5 t = ((cfg1.win 5).blk t).view.read (Elt Ideal) (layer V c) := by
  show (cfg1.win 5).cut (grid1.coords t) ((dat1 V c).after 5 t) = _
  rw [after1_5, out_eq, blk2, blk3, blk4]
  obtain ⟨-, -, -, -, -, -, -, -, -, -, e1, e5⟩ := idx_facts t
  have ht : t.val < 20 := t.isLt
  refine funext fun (j : S5000x64.Idx) => ?_
  obtain ⟨p, q, rfl⟩ : ∃ (p : Fin 5000) (q : Fin 64), j = ix2 p q := ⟨j 0, j 1, eq_ix2 j⟩
  have hp : t.val * 5000 + p.val < 100000 := by have := p.isLt; omega
  rw [View.read_apply]
  have he : ((cfg1.win 5).blk t).view.emb (ix2 p q) = (ix2 ⟨t.val * 5000 + p.val, hp⟩ q : S100000x64.Idx) :=
    funext fun a => Fin.ext (by
      match a with
      | ⟨0, _⟩ => show win1_5.index t (0 : Fin 2) * 5000 + 1 * p.val = t.val * 5000 + p.val; rw [e5]; omega
      | ⟨1, _⟩ => show win1_5.index t (1 : Fin 2) * 64 + 1 * q.val = q.val; rw [e1]; omega)
  rw [he]
  exact sageLayer_rows _ _ _ _ _ _ _ p ⟨t.val * 5000 + p.val, hp⟩ q
    (fun k => blk0_at V c t p k hp) (fun k => blk1_at V c t p k hp)

/-- Every row of the output array is in some point's block. -/
theorem cover (i : S100000x64.Idx) : ∃ t : Fin cfg1.N, (cfg1.win 5).flush t = true ∧ i ∈ ((cfg1.win 5).blk t).view.set := by
  have h0 : (i 0).val < 100000 := (i 0).isLt
  have h1 : (i 1).val < 64 := (i 1).isLt
  let t : Fin cfg1.N := ⟨(i 0).val / 5000, by show (i 0).val / 5000 < 20; omega⟩
  obtain ⟨-, -, -, -, -, -, -, -, -, -, e1, e5⟩ := idx_facts t
  refine ⟨t, flush1_5 t, ?_⟩
  show i ∈ ((View.whole main_v45).slice (win1_5.rect t)).set
  rw [View.set_slice_whole, Rect.mem_set_unit]
  intro a
  match a with
  | ⟨0, _⟩ =>
    show win1_5.index t (0 : Fin 2) * 5000 ≤ (i 0).val ∧ (i 0).val < win1_5.index t (0 : Fin 2) * 5000 + 5000
    rw [e5]; show (i 0).val / 5000 * 5000 ≤ (i 0).val ∧ (i 0).val < (i 0).val / 5000 * 5000 + 5000; omega
  | ⟨1, _⟩ =>
    show win1_5.index t (1 : Fin 2) * 64 ≤ (i 1).val ∧ (i 1).val < win1_5.index t (1 : Fin 2) * 64 + 64
    rw [e1]; omega

/-- The output array after the region: the layer of the whole arrays as the region finds them. -/
theorem value (c : Dev nD) : (dat1 V c).arrAt 5 cfg1.N = layer V c :=
  (dat1 V c).arrAt_eq_of_cover 5 (layer V c) (fun t _ => flushed_eq V c t) cover

end Value

end Cert.KernelIdeal.Region1

end
-- ==== Proof.Region2.lean ====
/-
  Region 2 of the idealized kernel program: the output layer, tile by tile.

  The grid has 20 points; point t takes rows 5000 t … 5000 t + 4999 of the second layer's output, the [64, 1] weight
  and the [1, 1] bias whole, and writes rows 5000 t … 5000 t + 4999 of the result: the logistic function of the row's
  product with the weight plus the bias.  An entry depends on one row of the input only, so what point t writes back
  is block t of the output layer of the WHOLE arrays as the region finds them; the 20 blocks tile the result array,
  which therefore ends holding that layer.
-/
import proofs.«176698_j48481590837453_1_alg».proof.Proof.Gen.KernelIdeal.Frame
import proofs.«176698_j48481590837453_1_alg».proof.Proof.LibSageNet

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.SageLayers Cert.Hetero Cert.SageNet

theorem hz : (![0, 0] : Fin 2 → Nat) = fun _ => 0 := funext fun a => by fin_cases a <;> rfl

/-- The body's stored value is the output layer of the blocks it loaded. -/
theorem pay_eq (x0 : Vec Ideal S5000x64 .f32) (x1 : Vec Ideal S64x1 .f32) (x2 : Vec Ideal S1x1 .f32) :
    k2_pay1 (F := Ideal) x0 x1 x2 = headLayer (R := 5000) (K := 64) (N := 1) x0 x1 x2 := by
  funext j
  obtain ⟨p, q, rfl⟩ : ∃ (p : Fin 5000) (q : Fin 1), j = ix2 p q := ⟨j 0, j 1, eq_ix2 j⟩
  refine (head_body_at (shapeCast S5000x64 x0 shapeCasts_S5000x64_S5000x64) x1 x2 bitsLt_bf16_f32
    shapeCasts_S1x1_S1x1 broadcasts_S1x1_S5000x1 p q).trans ?_
  rw [shapeCast_self]

/-- The output window's staging buffer after the body, as one function of the input blocks. -/
theorem out_eq (x0 : Vec Ideal S5000x64 .f32) (x1 : Vec Ideal S64x1 .f32) (x2 : Vec Ideal S1x1 .f32) :
    out2_3 (F := Ideal) x0 x1 x2 = headLayer (R := 5000) (K := 64) (N := 1) x0 x1 x2 := by
  unfold out2_3
  rw [View.canon_unit_zero hz]
  simp only [View.ld_unit_zero (S := S5000x64) hz, View.ld_unit_zero (S := S64x1) hz, View.ld_unit_zero (S := S1x1) hz]
  exact pay_eq x0 x1 x2

section Value

variable (V : (c : Dev nD) → (b : Ref sig .tc) → Buf (Elt Ideal) ((c : Thread nD τ).loc b))

/-- The printed index maps over the grid: the input moves with the output's row block, the weight and the bias stay
    whole, and the output's row block is the point's number. -/
theorem idx_facts : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (1 : Fin 2) = 0 ∧ win2_3.index t (0 : Fin 2) = t.val :=
  (by decide +kernel : ∀ t : Fin grid2.N, _)

/-- The output layer of the whole arrays as the region finds them. -/
abbrev layer (c : Dev nD) : Buf (Elt Ideal) ((c : Thread nD τ).loc main_v47) :=
  headLayer (R := 100000) (K := 64) (N := 1) (V c main_v45) (V c main_arg8) (V c main_v46)

/-- The weight's block is the whole weight. -/
theorem blk1 (c : Dev nD) (t : Fin cfg2.N) : (iblk2 V c 1 t : Vec Ideal S64x1 .f32) = V c main_arg8 := by
  obtain ⟨-, -, e0, e1, -⟩ := idx_facts t
  funext j
  unfold iblk2
  rw [View.read_apply]
  show V c main_arg8 _ = V c main_arg8 j
  refine congrArg (V c main_arg8) (funext fun a => Fin.ext ?_)
  match a with
  | ⟨0, _⟩ => show win2_1.index t (0 : Fin 2) * 64 + 1 * (j 0).val = (j 0).val; rw [e0]; omega
  | ⟨1, _⟩ => show win2_1.index t (1 : Fin 2) * 1 + 1 * (j 1).val = (j 1).val; rw [e1]; omega

/-- The bias's block is the whole bias. -/
theorem blk2 (c : Dev nD) (t : Fin cfg2.N) : (iblk2 V c 2 t : Vec Ideal S1x1 .f32) = V c main_v46 := by
  obtain ⟨-, -, -, -, e0, e1, -⟩ := idx_facts t
  funext j
  unfold iblk2
  rw [View.read_apply]
  show V c main_v46 _ = V c main_v46 j
  refine congrArg (V c main_v46) (funext fun a => Fin.ext ?_)
  match a with
  | ⟨0, _⟩ => show win2_2.index t (0 : Fin 2) * 1 + 1 * (j 0).val = (j 0).val; rw [e0]; omega
  | ⟨1, _⟩ => show win2_2.index t (1 : Fin 2) * 1 + 1 * (j 1).val = (j 1).val; rw [e1]; omega

/-- Row p of the input's block at point t is row 5000 t + p of the array. -/
theorem blk0_at (c : Dev nD) (t : Fin cfg2.N) (p : Fin 5000) (k : Fin 64) (h : t.val * 5000 + p.val < 100000) :
    (iblk2 V c 0 t : Vec Ideal S5000x64 .f32) (ix2 p k) = V c main_v45 (ix2 ⟨t.val * 5000 + p.val, h⟩ k) := by
  obtain ⟨e0, e1, -, -, -, -, -, e5⟩ := idx_facts t
  unfold iblk2
  rw [View.read_apply]
  show V c main_v45 _ = _
  refine congrArg (V c main_v45) (funext fun a => Fin.ext ?_)
  match a with
  | ⟨0, _⟩ => show win2_0.index t (0 : Fin 2) * 5000 + 1 * p.val = t.val * 5000 + p.val; rw [e0, e5]; omega
  | ⟨1, _⟩ => show win2_0.index t (1 : Fin 2) * 64 + 1 * k.val = k.val; rw [e1]; omega

/-- What point t writes back is block t of the output layer of the whole arrays. -/
theorem flushed_eq (c : Dev nD) (t : Fin cfg2.N) :
    (dat2 V c).flushed 3 t = ((cfg2.win 3).blk t).view.read (Elt Ideal) (layer V c) := by
  show (cfg2.win 3).cut (grid2.coords t) ((dat2 V c).after 3 t) = _
  rw [after2_3, out_eq, blk1, blk2]
  obtain ⟨-, -, -, -, -, -, e1, e5⟩ := idx_facts t
  have ht : t.val < 20 := t.isLt
  refine funext fun (j : S5000x1.Idx) => ?_
  obtain ⟨p, q, rfl⟩ : ∃ (p : Fin 5000) (q : Fin 1), j = ix2 p q := ⟨j 0, j 1, eq_ix2 j⟩
  have hp : t.val * 5000 + p.val < 100000 := by have := p.isLt; omega
  rw [View.read_apply]
  have he : ((cfg2.win 3).blk t).view.emb (ix2 p q) = (ix2 ⟨t.val * 5000 + p.val, hp⟩ q : S100000x1.Idx) :=
    funext fun a => Fin.ext (by
      match a with
      | ⟨0, _⟩ => show win2_3.index t (0 : Fin 2) * 5000 + 1 * p.val = t.val * 5000 + p.val; rw [e5]; omega
      | ⟨1, _⟩ => show win2_3.index t (1 : Fin 2) * 1 + 1 * q.val = q.val; rw [e1]; omega)
  rw [he]
  exact headLayer_rows _ _ _ _ p ⟨t.val * 5000 + p.val, hp⟩ q (fun k => blk0_at V c t p k hp)

/-- Every row of the result array is in some point's block. -/
theorem cover (i : S100000x1.Idx) : ∃ t : Fin cfg2.N, (cfg2.win 3).flush t = true ∧ i ∈ ((cfg2.win 3).blk t).view.set := by
  have h0 : (i 0).val < 100000 := (i 0).isLt
  have h1 : (i 1).val < 1 := (i 1).isLt
  let t : Fin cfg2.N := ⟨(i 0).val / 5000, by show (i 0).val / 5000 < 20; omega⟩
  obtain ⟨-, -, -, -, -, -, e1, e5⟩ := idx_facts t
  refine ⟨t, flush2_3 t, ?_⟩
  show i ∈ ((View.whole main_v47).slice (win2_3.rect t)).set
  rw [View.set_slice_whole, Rect.mem_set_unit]
  intro a
  match a with
  | ⟨0, _⟩ =>
    show win2_3.index t (0 : Fin 2) * 5000 ≤ (i 0).val ∧ (i 0).val < win2_3.index t (0 : Fin 2) * 5000 + 5000
    rw [e5]; show (i 0).val / 5000 * 5000 ≤ (i 0).val ∧ (i 0).val < (i 0).val / 5000 * 5000 + 5000; omega
  | ⟨1, _⟩ =>
    show win2_3.index t (1 : Fin 2) * 1 ≤ (i 1).val ∧ (i 1).val < win2_3.index t (1 : Fin 2) * 1 + 1
    rw [e1]; omega

/-- The result array after the region: the output layer of the whole arrays as the region finds them. -/
theorem value (c : Dev nD) : (dat2 V c).arrAt 3 cfg2.N = layer V c :=
  (dat2 V c).arrAt_eq_of_cover 3 (layer V c) (fun t _ => flushed_eq V c t) cover

end Value

end Cert.KernelIdeal.Region2

end
-- ==== Proof.RefValue.lean ====
/-
  The reference program's result as the network's three layers.

  The host program computes, from the node features x, the edge list and the weights: the mean of the neighbours'
  features (a gather along the edges' sources, a sum into the edges' targets, a division by the clamped in-degree), the
  first GraphSAGE layer of that mean and x, the same mean aggregation of the first layer's output, the second layer,
  and the output layer's logistic function.  Stage by stage its operations are the layer functions of the network's layer module; the
  two aggregations are kept as the host spells them, as functions of the features and the edge list.
-/
import proofs.«176698_j48481590837453_1_alg».proof.Proof.Gen.ReferenceIdeal.Read
import proofs.«176698_j48481590837453_1_alg».proof.Proof.LibSageNet

set_option maxRecDepth 16384

noncomputable section

namespace Cert.ReferenceIdeal.RefValue

open Cert.ReferenceIdeal Cert.ReferenceIdeal.Gen Cert.ReferenceIdeal.Read
open Idealize.ShloMosaic Idealize.ShloMosaic.ValueIdx
open Cert.SageLayers Cert.SageNet

/-- The mean aggregation of 128-wide features along the edge list, as the host spells it: the sum over the edges into
    a node of the features of the edge's source, divided by the node's in-degree clamped at one. -/
def aggr128 (h : FVec Ideal S100000x128 .f32) (x1 : (⟨S2x1600000, .i32⟩ : BufTy).Contents (Elt Ideal)) :
    FVec Ideal S100000x128 .f32 :=
  Host.divf (Host.scatterAdd scatter_S100000x128_S1600000x1_S1600000x128_1_0_0_1 (val_main_v41 (F := Ideal)) (val_main_v42 (F := Ideal) x1)
      (Host.gather gather_S100000x128_S1600000x1_S1600000x128_1_0_n_n_0_1_1128 h (val_main_v39 (F := Ideal) x1)))
    (val_main_v51 (F := Ideal) x1)

variable (x0 : (⟨S100000x64, .f32⟩ : BufTy).Contents (Elt Ideal)) (x1 : (⟨S2x1600000, .i32⟩ : BufTy).Contents (Elt Ideal))
  (x2 : (⟨S64x128, .f32⟩ : BufTy).Contents (Elt Ideal)) (x3 : (⟨S128, .f32⟩ : BufTy).Contents (Elt Ideal))
  (x4 : (⟨S64x128, .f32⟩ : BufTy).Contents (Elt Ideal)) (x5 : (⟨S128x64, .f32⟩ : BufTy).Contents (Elt Ideal))
  (x6 : (⟨S64, .f32⟩ : BufTy).Contents (Elt Ideal)) (x7 : (⟨S128x64, .f32⟩ : BufTy).Contents (Elt Ideal))
  (x8 : (⟨S64x1, .f32⟩ : BufTy).Contents (Elt Ideal)) (x9 : (⟨S1, .f32⟩ : BufTy).Contents (Elt Ideal))

/-- The first layer's output. -/
theorem v29_eq : val_main_v29 (F := Ideal) x0 x1 x2 x3 x4
    = sageLayer (R := 100000) (K := 64) (N := 128) (val_main_v22 (F := Ideal) x0 x1) x0 x2 (val_main_v24 (F := Ideal) x3) x4 := by
  unfold val_main_v29 val_main_v28 val_main_v26 val_main_v27 val_main_v23 val_main_v25 val_main_v24 val_main_call0_v0 val_main_call0_cst
  exact host_sage_eq (val_main_v22 (F := Ideal) x0 x1) x0 x2 x3 x4 ![1] rfl bcast_S128_S1x128_1 ![0, 1] rfl rfl
    bcast_S1x128_S100000x128_0_1 ![] bcast_S_S100000x128

/-- The second aggregation is the mean aggregation of the first layer's output. -/
theorem v52_eq : val_main_v52 (F := Ideal) x0 x1 x2 x3 x4 = aggr128 (val_main_v29 (F := Ideal) x0 x1 x2 x3 x4) x1 := by
  unfold val_main_v52 val_main_v43 val_main_v40 aggr128
  rfl

/-- The second layer's output. -/
theorem v59_eq : val_main_v59 (F := Ideal) x0 x1 x2 x3 x4 x5 x6 x7
    = sageLayer (R := 100000) (K := 128) (N := 64) (val_main_v52 (F := Ideal) x0 x1 x2 x3 x4)
        (val_main_v29 (F := Ideal) x0 x1 x2 x3 x4) x5 (val_main_v54 (F := Ideal) x6) x7 := by
  unfold val_main_v59 val_main_v58 val_main_v56 val_main_v57 val_main_v53 val_main_v55 val_main_v54 val_main_call1_v0 val_main_call1_cst
  exact host_sage_eq (val_main_v52 (F := Ideal) x0 x1 x2 x3 x4) (val_main_v29 (F := Ideal) x0 x1 x2 x3 x4) x5 x6 x7 ![1] rfl
    bcast_S64_S1x64_1 ![0, 1] rfl rfl bcast_S1x64_S100000x64_0_1 ![] bcast_S_S100000x64

/-- The result: the output layer of the second layer's output. -/
theorem v69_eq : val_main_v69 (F := Ideal) x0 x1 x2 x3 x4 x5 x6 x7 x8 x9
    = headLayer (R := 100000) (K := 64) (N := 1) (val_main_v59 (F := Ideal) x0 x1 x2 x3 x4 x5 x6 x7) x8 (val_main_v61 (F := Ideal) x9) := by
  unfold val_main_v69 val_main_v68 val_main_v67 val_main_v66 val_main_v65 val_main_v64 val_main_v63 val_main_v60 val_main_v62
    val_main_v61 val_main_cst_10 val_main_cst_11
  exact host_head_eq (val_main_v59 (F := Ideal) x0 x1 x2 x3 x4 x5 x6 x7) x8 x9 ![1] rfl bcast_S1_S1x1_1 ![0, 1] rfl rfl
    bcast_S1x1_S100000x1_0_1 ![] bcast_S_S100000x1

/-- The network as one function of the arguments: the output layer of the second layer of the aggregated first layer. -/
def net : (⟨S100000x1, .f32⟩ : BufTy).Contents (Elt Ideal) :=
  headLayer (R := 100000) (K := 64) (N := 1)
    (sageLayer (R := 100000) (K := 128) (N := 64)
      (aggr128 (sageLayer (R := 100000) (K := 64) (N := 128) (val_main_v22 (F := Ideal) x0 x1) x0 x2 (val_main_v24 (F := Ideal) x3) x4) x1)
      (sageLayer (R := 100000) (K := 64) (N := 128) (val_main_v22 (F := Ideal) x0 x1) x0 x2 (val_main_v24 (F := Ideal) x3) x4)
      x5 (val_main_v54 (F := Ideal) x6) x7)
    x8 (val_main_v61 (F := Ideal) x9)

/-- The reference's result is the network of its arguments. -/
theorem result_eq : val_main_v69 (F := Ideal) x0 x1 x2 x3 x4 x5 x6 x7 x8 x9 = net x0 x1 x2 x3 x4 x5 x6 x7 x8 x9 := by
  rw [v69_eq, v59_eq, v52_eq, v29_eq]
  rfl

end Cert.ReferenceIdeal.RefValue

end
-- ==== Proof.Stretch.lean ====
/-
  The host operations of the idealized kernel program, read at the buffers the three regions take.

  Before the first region the host computes the mean of the neighbours' features along the edge list (a gather
  along the edges' sources, a sum into the edges' targets, a division by the clamped in-degree) and reshapes the first
  bias into a row; between the first and the second region it aggregates the first layer's output the same way,
  along the same sources and targets, and reshapes the second bias; before the last region it reshapes the last bias.
  These are the operations the reference program applies, so each buffer is stated as the reference's own stage
  function of the arguments.  A bias vector reshaped into a [1, N] row is the row a broadcast along axis 1 makes of it.
  No host operation and no region writes an argument.
-/
import proofs.«176698_j48481590837453_1_alg».proof.Proof.Gen.KernelIdeal.Frame
import proofs.«176698_j48481590837453_1_alg».proof.Proof.RefValue

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.Read Cert.ReferenceIdeal.RefValue Cert.SageLayers

variable (m : (ℓ : Loc nD τ sig) → Buf (Elt Ideal) ℓ) (ρ : Dev nD → PrngReg) (c : Dev nD)

/-! ## Before the first region -/

theorem W1_arg0 : W1 m ρ c (Proc.devRef .tc main_arg0) = m ((c : Thread nD τ).loc main_arg0) := by
  show StableHlo.after hostOps0 (W0 m ρ c) (Proc.devRef .tc main_arg0) = _
  after_results_simp <;> rfl
theorem W1_arg1 : W1 m ρ c (Proc.devRef .tc main_arg1) = m ((c : Thread nD τ).loc main_arg1) := by
  show StableHlo.after hostOps0 (W0 m ρ c) (Proc.devRef .tc main_arg1) = _
  after_results_simp <;> rfl
theorem W1_arg2 : W1 m ρ c (Proc.devRef .tc main_arg2) = m ((c : Thread nD τ).loc main_arg2) := by
  show StableHlo.after hostOps0 (W0 m ρ c) (Proc.devRef .tc main_arg2) = _
  after_results_simp <;> rfl
theorem W1_arg4 : W1 m ρ c (Proc.devRef .tc main_arg4) = m ((c : Thread nD τ).loc main_arg4) := by
  show StableHlo.after hostOps0 (W0 m ρ c) (Proc.devRef .tc main_arg4) = _
  after_results_simp <;> rfl
theorem W1_arg5 : W1 m ρ c (Proc.devRef .tc main_arg5) = m ((c : Thread nD τ).loc main_arg5) := by
  show StableHlo.after hostOps0 (W0 m ρ c) (Proc.devRef .tc main_arg5) = _
  after_results_simp <;> rfl
theorem W1_arg6 : W1 m ρ c (Proc.devRef .tc main_arg6) = m ((c : Thread nD τ).loc main_arg6) := by
  show StableHlo.after hostOps0 (W0 m ρ c) (Proc.devRef .tc main_arg6) = _
  after_results_simp <;> rfl
theorem W1_arg7 : W1 m ρ c (Proc.devRef .tc main_arg7) = m ((c : Thread nD τ).loc main_arg7) := by
  show StableHlo.after hostOps0 (W0 m ρ c) (Proc.devRef .tc main_arg7) = _
  after_results_simp <;> rfl
theorem W1_arg8 : W1 m ρ c (Proc.devRef .tc main_arg8) = m ((c : Thread nD τ).loc main_arg8) := by
  show StableHlo.after hostOps0 (W0 m ρ c) (Proc.devRef .tc main_arg8) = _
  after_results_simp <;> rfl
theorem W1_arg9 : W1 m ρ c (Proc.devRef .tc main_arg9) = m ((c : Thread nD τ).loc main_arg9) := by
  show StableHlo.after hostOps0 (W0 m ρ c) (Proc.devRef .tc main_arg9) = _
  after_results_simp <;> rfl

/-- The edges' sources, as the reference's second aggregation reads them. -/
theorem W1_v1 : W1 m ρ c (Proc.devRef .tc main_v1) = val_main_v31 (F := Ideal) (m ((c : Thread nD τ).loc main_arg1)) := by
  show StableHlo.after hostOps0 (W0 m ρ c) (Proc.devRef .tc main_v1) = _
  after_results_simp
  rfl
/-- The edges' targets, as the reference's second aggregation reads them. -/
theorem W1_v3 : W1 m ρ c (Proc.devRef .tc main_v3) = val_main_v33 (F := Ideal) (m ((c : Thread nD τ).loc main_arg1)) := by
  show StableHlo.after hostOps0 (W0 m ρ c) (Proc.devRef .tc main_v3) = _
  after_results_simp
  rfl

/-- The mean of the neighbours' features. -/
theorem V1_v22 : V1 m ρ c main_v22
    = val_main_v22 (F := Ideal) (m ((c : Thread nD τ).loc main_arg0)) (m ((c : Thread nD τ).loc main_arg1)) := by
  show StableHlo.after hostOps0 (W0 m ρ c) (Proc.devRef .tc main_v22) = _
  after_results_simp
  rfl

/-- The first bias as a row. -/
theorem V1_v23 : V1 m ρ c main_v23 = val_main_v24 (F := Ideal) (m ((c : Thread nD τ).loc main_arg3)) := by
  show StableHlo.after hostOps0 (W0 m ρ c) (Proc.devRef .tc main_v23) = _
  after_results_simp
  exact (row_of_vector (N := 128) (m ((c : Thread nD τ).loc main_arg3)) ![1] rfl Cert.ReferenceIdeal.Gen.bcast_S128_S1x128_1
    shapeCasts_S128_S1x128).symm

/-! ## Between the first and the second region -/

theorem W2_v1 : W2 m ρ c (Proc.devRef .tc main_v1) = val_main_v31 (F := Ideal) (m ((c : Thread nD τ).loc main_arg1)) :=
  (W2_of_ne m ρ c main_v1 (by decide)).trans (W1_v1 m ρ c)
theorem W2_v3 : W2 m ρ c (Proc.devRef .tc main_v3) = val_main_v33 (F := Ideal) (m ((c : Thread nD τ).loc main_arg1)) :=
  (W2_of_ne m ρ c main_v3 (by decide)).trans (W1_v3 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)
theorem W2_arg9 : W2 m ρ c (Proc.devRef .tc main_arg9) = m ((c : Thread nD τ).loc main_arg9) :=
  (W2_of_ne m ρ c main_arg9 (by decide)).trans (W1_arg9 m ρ c)

/-- The mean aggregation of the first layer's output, along the same edge list. -/
theorem V3_v43 : V3 m ρ c main_v43
    = aggr128 (W2 m ρ c (Proc.devRef .tc main_v24)) (m ((c : Thread nD τ).loc main_arg1)) := by
  show StableHlo.after hostOps1 (W2 m ρ c) (Proc.devRef .tc main_v43) = _
  after_results_simp
  rw [W2_v1, W2_v3]
  rfl

/-- The first layer's output is still there. -/
theorem V3_v24 : V3 m ρ c main_v24 = W2 m ρ c (Proc.devRef .tc main_v24) := by
  show StableHlo.after hostOps1 (W2 m ρ c) (Proc.devRef .tc main_v24) = _
  after_results_simp

theorem V3_arg5 : V3 m ρ c main_arg5 = m ((c : Thread nD τ).loc main_arg5) := by
  show StableHlo.after hostOps1 (W2 m ρ c) (Proc.devRef .tc main_arg5) = _
  after_results_simp
  exact W2_arg5 m ρ c
theorem V3_arg7 : V3 m ρ c main_arg7 = m ((c : Thread nD τ).loc main_arg7) := by
  show StableHlo.after hostOps1 (W2 m ρ c) (Proc.devRef .tc main_arg7) = _
  after_results_simp
  exact W2_arg7 m ρ c
theorem W3_arg8 : W3 m ρ c (Proc.devRef .tc main_arg8) = m ((c : Thread nD τ).loc main_arg8) := by
  show StableHlo.after hostOps1 (W2 m ρ c) (Proc.devRef .tc main_arg8) = _
  after_results_simp
  exact W2_arg8 m ρ c
theorem W3_arg9 : W3 m ρ c (Proc.devRef .tc main_arg9) = m ((c : Thread nD τ).loc main_arg9) := by
  show StableHlo.after hostOps1 (W2 m ρ c) (Proc.devRef .tc main_arg9) = _
  after_results_simp
  exact W2_arg9 m ρ c

/-- The second bias as a row. -/
theorem V3_v44 : V3 m ρ c main_v44 = val_main_v54 (F := Ideal) (m ((c : Thread nD τ).loc main_arg6)) := by
  show StableHlo.after hostOps1 (W2 m ρ c) (Proc.devRef .tc main_v44) = _
  after_results_simp
  rw [W2_arg6]
  exact (row_of_vector (N := 64) (m ((c : Thread nD τ).loc main_arg6)) ![1] rfl Cert.ReferenceIdeal.Gen.bcast_S64_S1x64_1
    shapeCasts_S64_S1x64).symm

/-! ## Before the last region -/

theorem W4_arg8 : W4 m ρ c (Proc.devRef .tc main_arg8) = m ((c : Thread nD τ).loc main_arg8) :=
  (W4_of_ne m ρ c main_arg8 (by decide)).trans (W3_arg8 m ρ c)
theorem W4_arg9 : W4 m ρ c (Proc.devRef .tc main_arg9) = m ((c : Thread nD τ).loc main_arg9) :=
  (W4_of_ne m ρ c main_arg9 (by decide)).trans (W3_arg9 m ρ c)

/-- The second layer's output is still there. -/
theorem V5_v45 : V5 m ρ c main_v45 = W4 m ρ c (Proc.devRef .tc main_v45) := by
  show StableHlo.after hostOps2 (W4 m ρ c) (Proc.devRef .tc main_v45) = _
  after_results_simp

theorem V5_arg8 : V5 m ρ c main_arg8 = m ((c : Thread nD τ).loc main_arg8) := by
  show StableHlo.after hostOps2 (W4 m ρ c) (Proc.devRef .tc main_arg8) = _
  after_results_simp
  exact W4_arg8 m ρ c

/-- The last bias as a row. -/
theorem V5_v46 : V5 m ρ c main_v46 = val_main_v61 (F := Ideal) (m ((c : Thread nD τ).loc main_arg9)) := by
  show StableHlo.after hostOps2 (W4 m ρ c) (Proc.devRef .tc main_v46) = _
  after_results_simp
  rw [W4_arg9]
  exact (row_of_vector (N := 1) (m ((c : Thread nD τ).loc main_arg9)) ![1] rfl Cert.ReferenceIdeal.Gen.bcast_S1_S1x1_1
    shapeCasts_S1_S1x1).symm

end Cert.KernelIdeal.Stretch

end
-- ==== Proof.KernelValue.lean ====
/-
  The idealized kernel program's result as the network's three layers of its arguments.

  Region by region the output array is the layer of the arrays the region finds, and each of those is an argument, a
  bias made a row, an earlier region's output or the host's mean aggregation of one.  Composed, the result buffer ends
  holding the output layer of the second GraphSAGE layer of the first, the aggregations taken along the edge list: the
  same function of the arguments the reference's stages compose to.
-/
import proofs.«176698_j48481590837453_1_alg».proof.Proof.KernelRun
import proofs.«176698_j48481590837453_1_alg».proof.Proof.Region0
import proofs.«176698_j48481590837453_1_alg».proof.Proof.Region1
import proofs.«176698_j48481590837453_1_alg».proof.Proof.Region2
import proofs.«176698_j48481590837453_1_alg».proof.Proof.Stretch

set_option maxRecDepth 16384

noncomputable section

namespace Cert.KernelIdeal.NetValue

open Cert.KernelIdeal Cert.KernelIdeal.Gen Cert.KernelIdeal.Stretch
open Idealize.ShloMosaic Idealize.ShloMosaic.TcCoe Idealize.SL.Sem
open Cert.ReferenceIdeal.Read Cert.ReferenceIdeal.RefValue Cert.SageLayers Cert.SageNet

variable (m : (ℓ : Loc nD τ sig) → Buf (Elt Ideal) ℓ) (ρ : Dev nD → PrngReg) (c : Dev nD)

/-- The first layer of the arguments. -/
abbrev first : Buf (Elt Ideal) ((c : Thread nD τ).loc main_v24) :=
  sageLayer (R := 100000) (K := 64) (N := 128)
    (val_main_v22 (F := Ideal) (m ((c : Thread nD τ).loc main_arg0)) (m ((c : Thread nD τ).loc main_arg1)))
    (m ((c : Thread nD τ).loc main_arg0)) (m ((c : Thread nD τ).loc main_arg2))
    (val_main_v24 (F := Ideal) (m ((c : Thread nD τ).loc main_arg3))) (m ((c : Thread nD τ).loc main_arg4))

/-- After the first region its output array holds the first layer of the arguments. -/
theorem layer1 : W2 m ρ c (Proc.devRef .tc main_v24) = first m c := by
  rw [show W2 m ρ c (Proc.devRef .tc main_v24) = (dat0 (V1 m ρ) c).arrAt 5 cfg0.N from W2_arr m ρ c 5,
    Region0.value (V1 m ρ) c]
  show sageLayer (R := 100000) (K := 64) (N := 128) (V1 m ρ c main_v22) (V1 m ρ c main_arg0) (V1 m ρ c main_arg2)
    (V1 m ρ c main_v23) (V1 m ρ c main_arg4) = _
  rw [V1_v22, V1_v23, show V1 m ρ c main_arg0 = _ from W1_arg0 m ρ c, show V1 m ρ c main_arg2 = _ from W1_arg2 m ρ c,
    show V1 m ρ c main_arg4 = _ from W1_arg4 m ρ c]

/-- The second layer of the arguments. -/
abbrev second : Buf (Elt Ideal) ((c : Thread nD τ).loc main_v45) :=
  sageLayer (R := 100000) (K := 128) (N := 64)
    (aggr128 (first m c) (m ((c : Thread nD τ).loc main_arg1))) (first m c)
    (m ((c : Thread nD τ).loc main_arg5)) (val_main_v54 (F := Ideal) (m ((c : Thread nD τ).loc main_arg6)))
    (m ((c : Thread nD τ).loc main_arg7))

/-- After the second region its output array holds the second layer of the arguments. -/
theorem layer2 : W4 m ρ c (Proc.devRef .tc main_v45) = second m c := by
  rw [show W4 m ρ c (Proc.devRef .tc main_v45) = (dat1 (V3 m ρ) c).arrAt 5 cfg1.N from W4_arr m ρ c 5,
    Region1.value (V3 m ρ) c]
  show sageLayer (R := 100000) (K := 128) (N := 64) (V3 m ρ c main_v43) (V3 m ρ c main_v24) (V3 m ρ c main_arg5)
    (V3 m ρ c main_v44) (V3 m ρ c main_arg7) = _
  rw [V3_v43, V3_v24, V3_arg5, V3_v44, V3_arg7, layer1]

/-- The result buffer at the end of the run is the network of the arguments. -/
theorem result : W6 m ρ c (Proc.devRef .tc main_v47)
    = net (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  rw [show W6 m ρ c (Proc.devRef .tc main_v47) = (dat2 (V5 m ρ) c).arrAt 3 cfg2.N from W6_arr m ρ c 3,
    Region2.value (V5 m ρ) c]
  show headLayer (R := 100000) (K := 64) (N := 1) (V5 m ρ c main_v45) (V5 m ρ c main_arg8) (V5 m ρ c main_v46) = _
  rw [V5_v45, V5_arg8, V5_v46, layer2]
  rfl

end Cert.KernelIdeal.NetValue

end
-- ==== Proof.lean ====
/-
  The certificate of a two-layer GraphSAGE network with a logistic output layer over 100000 nodes and 1600000 edges.

  The kernel program runs three pipelined regions (the two GraphSAGE layers and the output layer, each over 20 tiles
  of 5000 rows) among host operations that aggregate neighbour features along the edge list; the reference is one host
  program.  On the extended reals a change of float format is the identity and a matrix product is the plain sum over
  the contracted axis, so both programs compute, from arguments that agree,

      logistic (H₂ · Wfc + bfc),   H₂ = max ((agg H₁ · W2l + b2) + H₁ · W2r, 0),   H₁ = max ((agg x · W1l + b1) + x · W1r, 0),

  where agg takes the mean of the neighbours' rows along the edge list (the same host operations in both programs).
  The kernel's tiles add the bias last, (a · Wl + h · Wr) + b; addition on the extended reals is commutative and
  associative, so no finiteness is needed and the precondition is never opened.  The kernel's logistic operation and the
  host's 1 / (1 + exp (-x)) are one function at every extended real.  The idealization rewrote nothing, so the
  preservation claim is trivial; the three frames are the programs' runs with the results dropped.
-/
import proofs.«176698_j48481590837453_1_alg».proof.Defs
import proofs.«176698_j48481590837453_1_alg».proof.Proof.Gen.Kernel
import proofs.«176698_j48481590837453_1_alg».proof.Proof.Gen.Kernel.Skeleton
import proofs.«176698_j48481590837453_1_alg».proof.Proof.Gen.Kernel.Launch
import proofs.«176698_j48481590837453_1_alg».proof.Proof.Gen.Kernel.Points
import proofs.«176698_j48481590837453_1_alg».proof.Proof.Gen.Kernel.Frame
import proofs.«176698_j48481590837453_1_alg».proof.Proof.Gen.KernelIdeal
import proofs.«176698_j48481590837453_1_alg».proof.Proof.Gen.KernelIdeal.Skeleton
import proofs.«176698_j48481590837453_1_alg».proof.Proof.Gen.KernelIdeal.Launch
import proofs.«176698_j48481590837453_1_alg».proof.Proof.Gen.KernelIdeal.Points
import proofs.«176698_j48481590837453_1_alg».proof.Proof.Gen.KernelIdeal.Frame
import proofs.«176698_j48481590837453_1_alg».proof.Proof.Gen.ReferenceIdeal
import proofs.«176698_j48481590837453_1_alg».proof.Proof.Gen.ReferenceIdeal.Run
import proofs.«176698_j48481590837453_1_alg».proof.Proof.Gen.ReferenceIdeal.Read
import proofs.«176698_j48481590837453_1_alg».proof.Proof.Gen.Pre_finite_inputs
import proofs.«176698_j48481590837453_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the network of the arguments in their result buffers. -/
theorem algebraic : Cert.algebraic_KernelIdeal_ReferenceIdeal := by
  intro m ρ m' ρ' _ hagree
  refine ⟨_, (θ_run Cert.KernelIdeal.defs _ _).mono
    (fun r h c => ⟨(h c).1.trans (Cert.KernelIdeal.NetValue.result m ρ c), (h c).2⟩) (Cert.KernelIdeal.Run.run_main m ρ), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v69_eq, Cert.ReferenceIdeal.RefValue.result_eq, e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
